-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S256 : Shape := ⟨1, ![256]⟩
abbrev S768x256 : Shape := ⟨2, ![768, 256]⟩
abbrev S256x256 : Shape := ⟨2, ![256, 256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S4x256x256x256 .f32) (main_arg1 : FVec F S256 .f32) (main_arg2 : FVec F S256 .f32) (main_arg3 : FVec F S768x256 .f32) (main_arg4 : FVec F S256x256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_v13 main_v16
-- ==== Kernel.lean ====
abbrev S4x256x256x256 : Shape := ⟨4, ![4, 256, 256, 256]⟩
abbrev S256 : Shape := ⟨1, ![256]⟩
abbrev S768x256 : Shape := ⟨2, ![768, 256]⟩
abbrev S256x256 : Shape := ⟨2, ![256, 256]⟩
abbrev S256x768 : Shape := ⟨2, ![256, 768]⟩
abbrev S1x256x8x256 : Shape := ⟨4, ![1, 256, 8, 256]⟩
abbrev S256x8x256 : Shape := ⟨3, ![256, 8, 256]⟩
abbrev S8x256x256 : Shape := ⟨3, ![8, 256, 256]⟩
abbrev S8x256 : Shape := ⟨2, ![8, 256]⟩
abbrev S8x256x1 : Shape := ⟨3, ![8, 256, 1]⟩
abbrev S1x1x256 : Shape := ⟨3, ![1, 1, 256]⟩
abbrev S2048x256 : Shape := ⟨2, ![2048, 256]⟩
abbrev S2048x768 : Shape := ⟨2, ![2048, 768]⟩
abbrev S8x32x8x4x64 : Shape := ⟨5, ![8, 32, 8, 4, 64]⟩
abbrev S32x4x8x8x64 : Shape := ⟨5, ![32, 4, 8, 8, 64]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x256x256x256, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S256x256, .f32⟩
  | .hbm, ⟨5, _⟩ => ⟨S256x768, .f32⟩
  | .hbm, ⟨6, _⟩ => ⟨S256x768, .bf16⟩
  | .hbm, ⟨7, _⟩ => ⟨S256x256, .f32⟩
  | .hbm, ⟨8, _⟩ => ⟨S256x256, .bf16⟩
  | .hbm, ⟨9, _⟩ => ⟨S4x256x256x256, .f32⟩
  | .local _ .vmem, ⟨0, _⟩ => ⟨S1x256x8x256, .f32⟩
  | .local _ .vmem, ⟨1, _⟩ => ⟨S1x256x8x256, .f32⟩
  | .local _ .vmem, ⟨2, _⟩ => ⟨S256, .f32⟩
  | .local _ .vmem, ⟨3, _⟩ => ⟨S256, .f32⟩
  | .local _ .vmem, ⟨4, _⟩ => ⟨S256x768, .bf16⟩
  | .local _ .vmem, ⟨5, _⟩ => ⟨S256x256, .bf16⟩
  | .local _ .vmem, ⟨6, _⟩ => ⟨S1x256x8x256, .f32⟩
  | .local _ .vmem, ⟨7, _⟩ => ⟨S1x256x8x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S768x256_S256x768_1_0 : S768x256.Transposes [1, 0] S256x768
  bitsLt_bf16_f32 : FTy.bits .bf16 < FTy.bits .f32
  transposes_S256x256_S256x256_1_0 : S256x256.Transposes [1, 0] S256x256
  inb_S1x256x8x256_S1x256x8x256_0_0_0_0 : ∀ a, (![0, 0, 0, 0] : Fin 4 → Nat) a + S1x256x8x256.size a ≤ S1x256x8x256.size a
  h_S1x256x8x256 : 0 < S1x256x8x256.numel
  shapeCasts_S1x256x8x256_S256x8x256 : S1x256x8x256.ShapeCasts S256x8x256
  transposes_S256x8x256_p1_2_0_S8x256x256 : S256x8x256.Transposes [1, 2, 0] S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  inb_S256_S256_0 : ∀ a, (![0] : Fin 1 → Nat) a + S256.size a ≤ S256.size a
  h_S256 : 0 < S256.numel
  shapeCasts_S256_S1x1x256 : S256.ShapeCasts S1x1x256
  broadcasts_S1x1x256_S8x256x256 : S1x1x256.Broadcasts S8x256x256
  shapeCasts_S8x256x256_S2048x256 : S8x256x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  shapeCasts_S2048x256_S8x32x8x4x64 : S2048x256.ShapeCasts S8x32x8x4x64
  transposes_S8x32x8x4x64_p1_3_0_2_4_S32x4x8x8x64 : S8x32x8x4x64.Transposes [1, 3, 0, 2, 4] S32x4x8x8x64
  shapeCasts_S32x4x8x8x64_S128x64x64 : S32x4x8x8x64.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  shapeCasts_S128x64x64_S32x4x8x8x64 : S128x64x64.ShapeCasts S32x4x8x8x64
  transposes_S32x4x8x8x64_p2_0_3_1_4_S8x32x8x4x64 : S32x4x8x8x64.Transposes [2, 0, 3, 1, 4] S8x32x8x4x64
  shapeCasts_S8x32x8x4x64_S8x256x256 : S8x32x8x4x64.ShapeCasts S8x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S8x256x256 : S2048x256.ShapeCasts S8x256x256
  transposes_S8x256x256_p2_0_1_S256x8x256 : S8x256x256.Transposes [2, 0, 1] S256x8x256
  shapeCasts_S256x8x256_S1x256x8x256 : S256x8x256.ShapeCasts S1x256x8x256
  dot_S2048x256_S256x768_S2048x768_1_0_0_1_n_n_wf : DotDims.WF S2048x256 S256x768 S2048x768 [1] [0] [0] [1] [] []
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x256.size a ≤ S4x256x256x256.size a
  hwx0_0 : ∀ i : grid0.Coords, EltTy.bits .f32 = 32 ∨ (Rect.block (s := S4x256x256x256) S1x256x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x8x256.size a ≤ S4x256x256x256.size a
  hwx0_5 : ∀ i : grid0.Coords, EltTy.bits .f32 = 32 ∨ (Rect.block (s := S4x256x256x256) S1x256x8x256.size (cc0_transform_5 i) (hinb0_5 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x256x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S256 : Shape := ⟨1, ![256]⟩
abbrev S768x256 : Shape := ⟨2, ![768, 256]⟩
abbrev S256x256 : Shape := ⟨2, ![256, 256]⟩
abbrev S_ : Shape := ⟨0, ![]⟩
abbrev S4x256x256 : Shape := ⟨3, ![4, 256, 256]⟩
abbrev S4x256x256x1 : Shape := ⟨4, ![4, 256, 256, 1]⟩
abbrev S1x1x1x256 : Shape := ⟨4, ![1, 1, 1, 256]⟩
abbrev S4x256x256x768 : Shape := ⟨4, ![4, 256, 256, 768]⟩
abbrev S4x32x8x32x8x4x64 : Shape := ⟨7, ![4, 32, 8, 32, 8, 4, 64]⟩
abbrev S4x32x32x4x8x8x64 : Shape := ⟨7, ![4, 32, 32, 4, 8, 8, 64]⟩
abbrev S4x32x32x4x64x64 : Shape := ⟨6, ![4, 32, 32, 4, 64, 64]⟩
abbrev S4x32x32x4x64 : Shape := ⟨5, ![4, 32, 32, 4, 64]⟩
abbrev S4x32x32x4x64x1 : Shape := ⟨6, ![4, 32, 32, 4, 64, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S256x256, .f32⟩
  | .hbm, ⟨5, _⟩ => ⟨S4x256x256x256, .f32⟩
  | .hbm, ⟨6, _⟩ => ⟨S_, .f32⟩
  | .hbm, ⟨7, _⟩ => ⟨S4x256x256, .f32⟩
  | .hbm, ⟨8, _⟩ => ⟨S4x256x256x1, .f32⟩
  | .hbm, ⟨9, _⟩ => ⟨S_, .f32⟩
  | .hbm, ⟨10, _⟩ => ⟨S4x256x256x1, .f32⟩
  | .hbm, ⟨11, _⟩ => ⟨S4x256x256x1, .f32⟩
  | .hbm, ⟨12, _⟩ => ⟨S4x256x256x256, .f32⟩
  | .hbm, ⟨13, _⟩ => ⟨S4x256x256x256, .f32⟩
  | .hbm, ⟨14, _⟩ => ⟨S4x256x256x256, .f32⟩
  | .hbm, ⟨15, _⟩ => ⟨S_, .f32⟩
  | .hbm, ⟨16, _⟩ => ⟨S4x256x256, .f32⟩
  | .hbm, ⟨17, _⟩ => ⟨S4x256x256x1, .f32⟩
  | .hbm, ⟨18, _⟩ => ⟨S_, .f32⟩
  | .hbm, ⟨19, _⟩ => ⟨S4x256x256x1, .f32⟩
  | .hbm, ⟨20, _⟩ => ⟨S4x256x256x1, .f32⟩
  | .hbm, ⟨21, _⟩ => ⟨S4x256x256x256, .f32⟩
  | .hbm, ⟨22, _⟩ => ⟨S4x256x256x256, .f32⟩
  | .hbm, ⟨23, _⟩ => ⟨S_, .f32⟩
  | .hbm, ⟨24, _⟩ => ⟨S4x256x256x1, .f32⟩
  | .hbm, ⟨25, _⟩ => ⟨S4x256x256x1, .f32⟩
  | .hbm, ⟨26, _⟩ => ⟨S4x256x256x1, .f32⟩
  | .hbm, ⟨27, _⟩ => ⟨S4x256x256x256, .f32⟩
  | .hbm, ⟨28, _⟩ => ⟨S4x256x256x256, .f32⟩
  | .hbm, ⟨29, _⟩ => ⟨S1x1x1x256, .f32⟩
  | .hbm, ⟨30, _⟩ => ⟨S4x256x256x256, .f32⟩
  | .hbm, ⟨31, _⟩ => ⟨S4x256x256x256, .f32⟩
  | .hbm, ⟨32, _⟩ => ⟨S1x1x1x256, .f32⟩
  | .hbm, ⟨33, _⟩ => ⟨S4x256x256x256, .f32⟩
  | .hbm, ⟨34, _⟩ => ⟨S4x256x256x256, .f32⟩
  | .hbm, ⟨35, _⟩ => ⟨S4x256x256x768, .f32⟩
  | .hbm, ⟨36, _⟩ => ⟨S4x256x256x256, .f32⟩
  | .hbm, ⟨37, _⟩ => ⟨S4x256x256x256, .f32⟩
  | .hbm, ⟨38, _⟩ => ⟨S4x256x256x256, .f32⟩
  | .hbm, ⟨39, _⟩ => ⟨S4x32x8x32x8x4x64, .f32⟩
  | .hbm, ⟨40, _⟩ => ⟨S4x32x32x4x8x8x64, .f32⟩
  | .hbm, ⟨41, _⟩ => ⟨S4x32x32x4x64x64, .f32⟩
  | .hbm, ⟨42, _⟩ => ⟨S4x32x8x32x8x4x64, .f32⟩
  | .hbm, ⟨43, _⟩ => ⟨S4x32x32x4x8x8x64, .f32⟩
  | .hbm, ⟨44, _⟩ => ⟨S4x32x32x4x64x64, .f32⟩
  | .hbm, ⟨45, _⟩ => ⟨S4x32x8x32x8x4x64, .f32⟩
  | .hbm, ⟨46, _⟩ => ⟨S4x32x32x4x8x8x64, .f32⟩
  | .hbm, ⟨47, _⟩ => ⟨S4x32x32x4x64x64, .f32⟩
  | .hbm, ⟨48, _⟩ => ⟨S4x32x32x4x64x64, .f32⟩
  | .hbm, ⟨49, _⟩ => ⟨S_, .f32⟩
  | .hbm, ⟨50, _⟩ => ⟨S4x32x32x4x64x64, .f32⟩
  | .hbm, ⟨51, _⟩ => ⟨S4x32x32x4x64x64, .f32⟩
  | .hbm, ⟨52, _⟩ => ⟨S_, .f32⟩
  | .hbm, ⟨53, _⟩ => ⟨S4x32x32x4x64, .f32⟩
  | .hbm, ⟨54, _⟩ => ⟨S_, .f32⟩
  | .hbm, ⟨55, _⟩ => ⟨S4x32x32x4x64, .f32⟩
  | .hbm, ⟨56, _⟩ => ⟨S4x32x32x4x64, .f32⟩
  | .hbm, ⟨57, _⟩ => ⟨S4x32x32x4x64x1, .f32⟩
  | .hbm, ⟨58, _⟩ => ⟨S4x32x32x4x64x64, .f32⟩
  | .hbm, ⟨59, _⟩ => ⟨S4x32x32x4x64x64, .f32⟩
  | .hbm, ⟨60, _⟩ => ⟨S4x32x32x4x64x64, .f32⟩
  | .hbm, ⟨61, _⟩ => ⟨S_, .f32⟩
  | .hbm, ⟨62, _⟩ => ⟨S4x32x32x4x64, .f32⟩
  | .hbm, ⟨63, _⟩ => ⟨S4x32x32x4x64x1, .f32⟩
  | .hbm, ⟨64, _⟩ => ⟨S4x32x32x4x64x64, .f32⟩
  | .hbm, ⟨65, _⟩ => ⟨S4x32x32x4x64x64, .f32⟩
  | .hbm, ⟨66, _⟩ => ⟨S4x32x32x4x64x64, .f32⟩
  | .hbm, ⟨67, _⟩ => ⟨S4x32x32x4x8x8x64, .f32⟩
  | .hbm, ⟨68, _⟩ => ⟨S4x32x8x32x8x4x64, .f32⟩
  | .hbm, ⟨69, _⟩ => ⟨S4x256x256x256, .f32⟩
  | .hbm, ⟨70, _⟩ => ⟨S4x256x256x256, .f32⟩
  | .hbm, ⟨71, _⟩ => ⟨S4x256x256x256, .f32⟩
  | .hbm, ⟨72, _⟩ => ⟨S4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]

class Facts₀ : Prop where
  transposes_S4x256x256x256_S4x256x256x256_0_2_3_1 : S4x256x256x256.Transposes [0, 2, 3, 1] S4x256x256x256
  reducesTo_S4x256x256x256_S4x256x256_d3 : S4x256x256x256.ReducesTo [3] S4x256x256
  h_S_ : 0 < S_.numel
  bcast_S4x256x256_S4x256x256x1_0_1_2 : S4x256x256.BroadcastsInDim S4x256x256x1 (![0, 1, 2] : Fin 3 → Fin S4x256x256x1.rank)
  bcast_S_S4x256x256x1 : S_.BroadcastsInDim S4x256x256x1 (![] : Fin 0 → Fin S4x256x256x1.rank)
  bcast_S4x256x256x1_S4x256x256x256_0_1_2_3 : S4x256x256x1.BroadcastsInDim S4x256x256x256 (![0, 1, 2, 3] : Fin 4 → Fin S4x256x256x256.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  slices_S4x256x256x768_S4x256x256x256_0_0_0_0 : S4x256x256x768.Slices ![0, 0, 0, 0] S4x256x256x256
  slices_S4x256x256x768_S4x256x256x256_0_0_0_256 : S4x256x256x768.Slices ![0, 0, 0, 256] S4x256x256x256
  slices_S4x256x256x768_S4x256x256x256_0_0_0_512 : S4x256x256x768.Slices ![0, 0, 0, 512] S4x256x256x256
  shapeCasts_S4x256x256x256_S4x32x8x32x8x4x64 : S4x256x256x256.ShapeCasts S4x32x8x32x8x4x64
  transposes_S4x32x8x32x8x4x64_S4x32x32x4x8x8x64_0_1_3_5_2_4_6 : S4x32x8x32x8x4x64.Transposes [0, 1, 3, 5, 2, 4, 6] S4x32x32x4x8x8x64
  shapeCasts_S4x32x32x4x8x8x64_S4x32x32x4x64x64 : S4x32x32x4x8x8x64.ShapeCasts S4x32x32x4x64x64
  bcast_S_S4x32x32x4x64x64 : S_.BroadcastsInDim S4x32x32x4x64x64 (![] : Fin 0 → Fin S4x32x32x4x64x64.rank)
  reducesTo_S4x32x32x4x64x64_S4x32x32x4x64_d5 : S4x32x32x4x64x64.ReducesTo [5] S4x32x32x4x64
  bcast_S_S4x32x32x4x64 : S_.BroadcastsInDim S4x32x32x4x64 (![] : Fin 0 → Fin S4x32x32x4x64.rank)
  bcast_S4x32x32x4x64_S4x32x32x4x64x1_0_1_2_3_4 : S4x32x32x4x64.BroadcastsInDim S4x32x32x4x64x1 (![0, 1, 2, 3, 4] : Fin 5 → Fin S4x32x32x4x64x1.rank)
  bcast_S4x32x32x4x64x1_S4x32x32x4x64x64_0_1_2_3_4_5 : S4x32x32x4x64x1.BroadcastsInDim S4x32x32x4x64x64 (![0, 1, 2, 3, 4, 5] : Fin 6 → Fin S4x32x32x4x64x64.rank)
  shapeCasts_S4x32x32x4x64x64_S4x32x32x4x8x8x64 : S4x32x32x4x64x64.ShapeCasts S4x32x32x4x8x8x64
  transposes_S4x32x32x4x8x8x64_S4x32x8x32x8x4x64_0_1_4_2_5_3_6 : S4x32x32x4x8x8x64.Transposes [0, 1, 4, 2, 5, 3, 6] S4x32x8x32x8x4x64
  shapeCasts_S4x32x8x32x8x4x64_S4x256x256x256 : S4x32x8x32x8x4x64.ShapeCasts S4x256x256x256
  transposes_S4x256x256x256_S4x256x256x256_0_3_1_2 : S4x256x256x256.Transposes [0, 3, 1, 2] S4x256x256x256
  dot_S4x256x256x256_S768x256_S4x256x256x768_3_1_012_0_n_n_wf : DotDims.WF S4x256x256x256 S768x256 S4x256x256x768 [3] [1] [0, 1, 2] [0] [] []
  dot_S4x32x32x4x64x64_S4x32x32x4x64x64_S4x32x32x4x64x64_5_5_4_4_0123_0123_wf : DotDims.WF S4x32x32x4x64x64 S4x32x32x4x64x64 S4x32x32x4x64x64 [5] [5] [4] [4] [0, 1, 2, 3] [0, 1, 2, 3]
  dot_S4x32x32x4x64x64_S4x32x32x4x64x64_S4x32x32x4x64x64_5_4_4_5_0123_0123_wf : DotDims.WF S4x32x32x4x64x64 S4x32x32x4x64x64 S4x32x32x4x64x64 [5] [4] [4] [5] [0, 1, 2, 3] [0, 1, 2, 3]
  dot_S4x256x256x256_S256x256_S4x256x256x256_3_1_012_0_n_n_wf : DotDims.WF S4x256x256x256 S256x256 S4x256x256x256 [3] [1] [0, 1, 2] [0] [] []

variable [Facts₀]

def dot_S4x256x256x256_S768x256_S4x256x256x768_3_1_012_0_n_n : DotDims S4x256x256x256 S768x256 S4x256x256x768 where
  lhsContracting := [3]
  rhsContracting := [1]
  lhsNonContracting := [0, 1, 2]
  rhsNonContracting := [0]
  lhsBatch := []
  rhsBatch := []
  wf := dot_S4x256x256x256_S768x256_S4x256x256x768_3_1_012_0_n_n_wf
def dot_S4x32x32x4x64x64_S4x32x32x4x64x64_S4x32x32x4x64x64_5_5_4_4_0123_0123 : DotDims S4x32x32x4x64x64 S4x32x32x4x64x64 S4x32x32x4x64x64 where
  lhsContracting := [5]
  rhsContracting := [5]
  lhsNonContracting := [4]
  rhsNonContracting := [4]
  lhsBatch := [0, 1, 2, 3]
  rhsBatch := [0, 1, 2, 3]
  wf := dot_S4x32x32x4x64x64_S4x32x32x4x64x64_S4x32x32x4x64x64_5_5_4_4_0123_0123_wf
def dot_S4x32x32x4x64x64_S4x32x32x4x64x64_S4x32x32x4x64x64_5_4_4_5_0123_0123 : DotDims S4x32x32x4x64x64 S4x32x32x4x64x64 S4x32x32x4x64x64 where
  lhsContracting := [5]
  rhsContracting := [4]
  lhsNonContracting := [4]
  rhsNonContracting := [5]
  lhsBatch := [0, 1, 2, 3]
  rhsBatch := [0, 1, 2, 3]
  wf := dot_S4x32x32x4x64x64_S4x32x32x4x64x64_S4x32x32x4x64x64_5_4_4_5_0123_0123_wf
def dot_S4x256x256x256_S256x256_S4x256x256x256_3_1_012_0_n_n : DotDims S4x256x256x256 S256x256 S4x256x256x256 where
  lhsContracting := [3]
  rhsContracting := [1]
  lhsNonContracting := [0, 1, 2]
  rhsNonContracting := [0]
  lhsBatch := []
  rhsBatch := []
  wf := dot_S4x256x256x256_S256x256_S4x256x256x256_3_1_012_0_n_n_wf

class Facts : Prop extends Facts₀ where

variable [Facts]
-- ==== Proof.WindowAttention.lean ====
/-
  Windowed multi-head self-attention with a pre-LayerNorm, on ONE band of eight image rows, as a function on
  the extended reals.

  The image has 256 channels; a band is 8 rows by 256 columns; it is cut into 32 windows of 8 x 8 pixels. Per pixel the
  256 channels are normalised (mean and variance over the channels, a learned scale and shift) and projected to
  768 channels (queries, keys and values: 4 heads of 64 channels each). Inside a window the 64 pixels are the
  tokens: per head, the scores are the query-key inner products scaled by a constant, each token's scores go
  through a softmax over the 64 keys, and the head's output is the softmax-weighted sum of the values. The heads'
  outputs are laid side by side as 256 channels, projected by a 256 x 256 matrix, and the input is added back.

  Everything below is stated over explicit coordinates (`Fin 8`, `Fin 256`, ...), with the float literals kept as
  their bit patterns: both programs use the same four words (256, the variance's epsilon, the scale 1/8 and
  minus infinity), so they are never evaluated.
-/
import Idealize.ShloMosaic.PureOps.Ideal
import Idealize.ShloMosaic.Lib.ValueIdxCoords

noncomputable section

namespace Cert.LocalAttn

open Idealize.ShloMosaic

/-! ## Coordinates -/

/-- Token `q` of an 8 x 8 window sits at row `q / 8` ... -/
abbrev tokRow (q : Fin 64) : Fin 8 := ⟨q.val / 8, by have := q.isLt; omega⟩
/-- ... and column `q % 8` of the window. -/
abbrev tokCol (q : Fin 64) : Fin 8 := ⟨q.val % 8, by have := q.isLt; omega⟩
/-- The token at row `r`, column `s` of a window. -/
abbrev tok (r s : Fin 8) : Fin 64 := ⟨r.val * 8 + s.val, by have := r.isLt; have := s.isLt; omega⟩
/-- Position `8 n + s` along an image axis of 256: place `s` of the `n`-th group of eight. -/
abbrev pos (n : Fin 32) (s : Fin 8) : Fin 256 := ⟨n.val * 8 + s.val, by have := n.isLt; have := s.isLt; omega⟩
/-- The group of eight a position lies in, -/
abbrev grp (w : Fin 256) : Fin 32 := ⟨w.val / 8, by have := w.isLt; omega⟩
/-- and its place inside the group. -/
abbrev plc (w : Fin 256) : Fin 8 := ⟨w.val % 8, by have := w.isLt; omega⟩
/-- Channel `64 hd + d` of the 256 attention channels: head `hd`, coordinate `d`. -/
abbrev chanO (hd : Fin 4) (d : Fin 64) : Fin 256 := ⟨hd.val * 64 + d.val, by have := hd.isLt; have := d.isLt; omega⟩
/-- The head of an attention channel, -/
abbrev headOf (c : Fin 256) : Fin 4 := ⟨c.val / 64, by have := c.isLt; omega⟩
/-- and its coordinate inside the head. -/
abbrev dimOf (c : Fin 256) : Fin 64 := ⟨c.val % 64, by have := c.isLt; omega⟩
/-- Channel `off + 64 hd + d` of the 768 projected channels (`off` = 0, 256, 512: queries, keys, values). -/
abbrev chan (off : Nat) (hoff : off + 256 ≤ 768) (hd : Fin 4) (d : Fin 64) : Fin 768 :=
  ⟨off + (hd.val * 64 + d.val), by have := hd.isLt; have := d.isLt; omega⟩
/-- Row `256 r + w` of a band flattened to 2048 pixels. -/
abbrev pix (r : Fin 8) (w : Fin 256) : Fin 2048 := ⟨r.val * 256 + w.val, by have := r.isLt; have := w.isLt; omega⟩
/-- Batch entry `4 mw + hd` of the 128 (window, head) pairs of a band. -/
abbrev wh (mw : Fin 32) (hd : Fin 4) : Fin 128 := ⟨mw.val * 4 + hd.val, by have := mw.isLt; have := hd.isLt; omega⟩

/-! ## One pixel: LayerNorm over the channels, then the projection -/

/-- The mean of a pixel's 256 channels. -/
def mean (row : Fin 256 → EReal) : EReal := Ideal.div (∑ c : Fin 256, row c) (Ideal.ofBits .f32 0x43800000#32)

/-- The reciprocal standard deviation: `rsqrt` of the mean squared deviation plus epsilon. -/
def rstd (row : Fin 256 → EReal) : EReal :=
  Ideal.rsqrt (Ideal.div (∑ c : Fin 256, (row c - mean row) * (row c - mean row)) (Ideal.ofBits .f32 0x43800000#32)
    + Ideal.ofBits .f32 0x3727C5AC#32)

/-- LayerNorm of a pixel's channels, with scale `γ` and shift `β`. -/
def lnRow (row γ β : Fin 256 → EReal) (c : Fin 256) : EReal := (row c - mean row) * rstd row * γ c + β c

/-- Projected channel `f` of a pixel: the normalised channels against row `f` of the projection. -/
def qkvRow (row γ β : Fin 256 → EReal) (Wq : Fin 768 → Fin 256 → EReal) (f : Fin 768) : EReal :=
  ∑ c : Fin 256, lnRow row γ β c * Wq f c

/-! ## One (window, head): scaled scores, softmax over the keys, weighted values -/

/-- The scaled score of query token `q` against key token `k`. -/
def score (Q K : Fin 64 → Fin 64 → EReal) (q k : Fin 64) : EReal :=
  (∑ d : Fin 64, Q q d * K k d) * Ideal.ofBits .f32 0x3E000000#32

/-- The largest score of query token `q` (a fold of `max` from minus infinity, and once more against it). -/
def rowMax (Q K : Fin 64 → Fin 64 → EReal) (q : Fin 64) : EReal :=
  max (Ideal.ofBits .f32 0xFF800000#32)
    ((Finset.univ : Finset (Fin 64)).fold max (Ideal.ofBits .f32 0xFF800000#32) fun k => score Q K q k)

/-- The exponential of a score below its row's maximum. -/
def expo (Q K : Fin 64 → Fin 64 → EReal) (q k : Fin 64) : EReal := Ideal.exp (score Q K q k - rowMax Q K q)

/-- The softmax weight of key `k` for query `q`. -/
def weight (Q K : Fin 64 → Fin 64 → EReal) (q k : Fin 64) : EReal :=
  Ideal.div (expo Q K q k) (∑ k' : Fin 64, expo Q K q k')

/-- The head's output at token `q`, coordinate `d`. -/
def attn (Q K V : Fin 64 → Fin 64 → EReal) (q d : Fin 64) : EReal := ∑ k : Fin 64, weight Q K q k * V k d

/-! ## One band -/

section Band
variable (xb : Fin 256 → Fin 8 → Fin 256 → EReal) (γ β : Fin 256 → EReal)
  (Wq : Fin 768 → Fin 256 → EReal) (Wo : Fin 256 → Fin 256 → EReal)

/-- The projected channels of the band's pixel at row `r`, column `w` (`xb c r w`: channel `c` of that pixel). -/
def qkvB (r : Fin 8) (w : Fin 256) (f : Fin 768) : EReal := qkvRow (fun c => xb c r w) γ β Wq f

/-- Window `mw`, head `hd`: the queries (`off = 0`), keys (256) or values (512) as a 64 x 64 matrix, token by coordinate. -/
def winB (off : Nat) (hoff : off + 256 ≤ 768) (mw : Fin 32) (hd : Fin 4) (q d : Fin 64) : EReal :=
  qkvB xb γ β Wq (tokRow q) (pos mw (tokCol q)) (chan off hoff hd d)

/-- The output of head `hd` in window `mw`. -/
def headB (mw : Fin 32) (hd : Fin 4) (q d : Fin 64) : EReal :=
  attn (winB xb γ β Wq 0 (by omega) mw hd) (winB xb γ β Wq 256 (by omega) mw hd) (winB xb γ β Wq 512 (by omega) mw hd) q d

/-- The heads' outputs laid back on the band: attention channel `c` of the pixel at row `r`, column `w`. -/
def mergedB (r : Fin 8) (w : Fin 256) (c : Fin 256) : EReal :=
  headB xb γ β Wq (grp w) (headOf c) (tok r (plc w)) (dimOf c)

/-- The band's result: output channel `f` of the pixel at row `r`, column `w` — the output projection of the merged
    heads plus the input. -/
def bandOut (f : Fin 256) (r : Fin 8) (w : Fin 256) : EReal :=
  (∑ c : Fin 256, mergedB xb γ β Wq r w c * Wo f c) + xb f r w

end Band

end Cert.LocalAttn

end
-- ==== Proof.KernelNormProject.lean ====
/-
  The first half of the kernel's body read at an index: the loaded block viewed without its leading unit axis, and the
  projection of the normalised pixels — entry (256 r + w, f) of the 2048 x 768 product is projected channel `f` of the
  pixel at row `r`, column `w` of the band.

  The chain, one lemma per operation that moves or combines entries: the block transposed to (row, column, channel);
  the lane sum over the channels; the mean column; the centred block; the reciprocal standard deviation column; the
  learned scale and shift spread over the pixels; the normalised block, flattened to 2048 x 256; and the product with
  the 256 x 768 weights as a sum over the 256 channels.
-/
import proofs.«100162_j21328807592345_2_alg».proof.Proof.Gen.KernelIdeal.Skeleton
import proofs.«100162_j21328807592345_2_alg».proof.Proof.WindowAttention
import Idealize.ShloMosaic.Lib.Pipeline.Value
import Idealize.ShloMosaic.Lib.ValueIdxCoords
import Idealize.ShloMosaic.PureOps.Ideal.Laws

noncomputable section

namespace Cert.LocalAttn.Kernel

open Cert.KernelIdeal Cert.KernelIdeal.Gen Idealize.ShloMosaic Idealize.ShloMosaic.ValueIdx Cert.LocalAttn

/-- The block without its leading unit axis. -/
theorem pay2_apply (v0 : Vec Ideal S1x256x8x256 .f32) (f : Fin 256) (r : Fin 8) (w : Fin 256) :
    k0_pay2 (F := Ideal) v0 (ix3 f r w) = v0 (ix4 u0 f r w) := by
  unfold k0_pay2
  refine shapeCast_apply v0 _ (ix3 f r w) (ix4 u0 f r w) ?_
  rw [Shape.rowMajor_val_four, Shape.rowMajor_val_three]
  show ((0 * 256 + f.val) * 8 + r.val) * 256 + w.val = (f.val * 8 + r.val) * 256 + w.val
  omega

/-- The block transposed to (row, column, channel). -/
def tr (v0 : Vec Ideal S1x256x8x256 .f32) : FVec Ideal S8x256x256 .f32 :=
  transpose S8x256x256 [1, 2, 0] (k0_pay2 v0) transposes_S256x8x256_p1_2_0_S8x256x256

/-- Entry (row, column, channel) of the transposed block is channel, row, column of the loaded one. -/
theorem tr_apply (v0 : Vec Ideal S1x256x8x256 .f32) (r : Fin 8) (w c : Fin 256) :
    tr v0 (ix3 r w c) = v0 (ix4 u0 c r w) := by
  unfold tr
  refine (transpose_apply _ _ _ (ix3 r w c) (ix3 c r w) ?_).trans (pay2_apply v0 c r w)
  intro b
  match b with
  | ⟨0, _⟩ => rfl
  | ⟨1, _⟩ => rfl
  | ⟨2, _⟩ => rfl

/-- The lane sums of a (row, column, channel) block, kept as a trailing unit axis. -/
def laneSum (x : FVec Ideal S8x256x256 .f32) : FVec Ideal S8x256x1 .f32 :=
  shapeCast S8x256x1 (multiReduction .add [2] S8x256 x 0x00000000#32 reduces_S8x256x256_S8x256 (.inl rfl) rfl)
    shapeCasts_S8x256_S8x256x1

/-- The lane sum at a pixel is the sum of the pixel's 256 channels. -/
theorem laneSum_apply (x : FVec Ideal S8x256x256 .f32) (r : Fin 8) (w : Fin 256) :
    laneSum x (ix3 r w u0) = ∑ c : Fin 256, x (ix3 r w c) := by
  unfold laneSum
  refine (shapeCast_apply _ _ (ix3 r w u0) (ix2 r w) ?_).trans ?_
  · rw [Shape.rowMajor_val_two, Shape.rowMajor_val_three]
    show r.val * 256 + w.val = (r.val * 256 + w.val) * 1 + 0
    omega
  · refine (Ideal.multiReduction_add_single x _ reduces_S8x256x256_S8x256 (.inl rfl) rfl (ix2 r w)).trans ?_
    show ∑ c : Fin 256, x (reduces_S8x256x256_S8x256.lift (ix2 r w) c) = _
    refine Finset.sum_congr rfl fun c _ => congrArg x (funext fun a => Fin.ext ?_)
    match a with
    | ⟨0, _⟩ => rfl
    | ⟨1, _⟩ => rfl
    | ⟨2, _⟩ => rfl

/-- The scalar 256 on every pixel. -/
def n256 : FVec Ideal S8x256x1 .f32 := broadcast S8x256x1 (Scalar.ofBits (F := Ideal) .f32 0x43800000#32)

/-- The mean column: the lane sums over 256. -/
def mu (v0 : Vec Ideal S1x256x8x256 .f32) : FVec Ideal S8x256x1 .f32 := divf (laneSum (tr v0)) n256

/-- The mean column at a pixel is the mean of the pixel's channels. -/
theorem mu_apply (v0 : Vec Ideal S1x256x8x256 .f32) (r : Fin 8) (w : Fin 256) :
    mu v0 (ix3 r w u0) = mean (fun c => v0 (ix4 u0 c r w)) := by
  unfold mu mean
  show Ideal.div (laneSum (tr v0) (ix3 r w u0)) (Ideal.ofBits .f32 0x43800000#32) = _
  rw [laneSum_apply]
  exact congrArg (fun s => Ideal.div s _) (Finset.sum_congr rfl fun c _ => tr_apply v0 r w c)

/-- A per-pixel column spread over the channels reads the column at the pixel. -/
theorem spread_apply (y : FVec Ideal S8x256x1 .f32) (r : Fin 8) (w c : Fin 256) :
    broadcastTo S8x256x256 y broadcasts_S8x256x1_S8x256x256 (ix3 r w c) = y (ix3 r w u0) := by
  refine broadcastTo_apply y _ (ix3 r w c) (ix3 r w u0) ?_
  intro a
  match a with
  | ⟨0, _⟩ => rfl
  | ⟨1, _⟩ => rfl
  | ⟨2, _⟩ => rfl

/-- The centred block: each channel less its pixel's mean. -/
def ctr (v0 : Vec Ideal S1x256x8x256 .f32) : FVec Ideal S8x256x256 .f32 :=
  subf (tr v0) (broadcastTo S8x256x256 (mu v0) broadcasts_S8x256x1_S8x256x256)

/-- The centred block at (row, column, channel). -/
theorem ctr_apply (v0 : Vec Ideal S1x256x8x256 .f32) (r : Fin 8) (w c : Fin 256) :
    ctr v0 (ix3 r w c) = v0 (ix4 u0 c r w) - mean (fun c => v0 (ix4 u0 c r w)) := by
  unfold ctr
  show tr v0 (ix3 r w c) - broadcastTo S8x256x256 (mu v0) broadcasts_S8x256x1_S8x256x256 (ix3 r w c) = _
  rw [spread_apply, tr_apply, mu_apply]

/-- The variance's epsilon on every pixel. -/
def eps : FVec Ideal S8x256x1 .f32 := broadcast S8x256x1 (Scalar.ofBits (F := Ideal) .f32 0x3727C5AC#32)

/-- The reciprocal standard deviation column. -/
def rs (v0 : Vec Ideal S1x256x8x256 .f32) : FVec Ideal S8x256x1 .f32 :=
  rsqrt (addf (divf (laneSum (mulf (ctr v0) (ctr v0))) n256) eps)

/-- The reciprocal standard deviation column at a pixel. -/
theorem rs_apply (v0 : Vec Ideal S1x256x8x256 .f32) (r : Fin 8) (w : Fin 256) :
    rs v0 (ix3 r w u0) = rstd (fun c => v0 (ix4 u0 c r w)) := by
  unfold rs rstd
  show Ideal.rsqrt (Ideal.div (laneSum (mulf (ctr v0) (ctr v0)) (ix3 r w u0)) (Ideal.ofBits .f32 0x43800000#32)
    + Ideal.ofBits .f32 0x3727C5AC#32) = _
  rw [laneSum_apply]
  refine congrArg (fun s => Ideal.rsqrt (Ideal.div s _ + _)) (Finset.sum_congr rfl fun c _ => ?_)
  show ctr v0 (ix3 r w c) * ctr v0 (ix3 r w c) = _
  rw [ctr_apply]

/-- A per-channel vector spread over the pixels. -/
def perChan (g : Vec Ideal S256 .f32) : FVec Ideal S8x256x256 .f32 :=
  broadcastTo S8x256x256 (shapeCast S1x1x256 g shapeCasts_S256_S1x1x256) broadcasts_S1x1x256_S8x256x256

/-- It reads the vector at the channel. -/
theorem perChan_apply (g : Vec Ideal S256 .f32) (r : Fin 8) (w c : Fin 256) :
    perChan g (ix3 r w c) = g (ix1 c) := by
  unfold perChan
  refine (broadcastTo_apply _ _ (ix3 r w c) (ix3 u0 u0 c) ?_).trans (shapeCast_apply g _ (ix3 u0 u0 c) (ix1 c) ?_)
  · intro a
    match a with
    | ⟨0, _⟩ => rfl
    | ⟨1, _⟩ => rfl
    | ⟨2, _⟩ => rfl
  · rw [Shape.rowMajor_val_one, Shape.rowMajor_val_three]
    show c.val = (0 * 1 + 0) * 256 + c.val
    omega

/-- The normalised block: centred, scaled by the reciprocal standard deviation and the learned scale, shifted. -/
def ln (v0 : Vec Ideal S1x256x8x256 .f32) (v19 v23 : Vec Ideal S256 .f32) : FVec Ideal S8x256x256 .f32 :=
  addf (mulf (mulf (ctr v0) (broadcastTo S8x256x256 (rs v0) broadcasts_S8x256x1_S8x256x256)) (perChan v19)) (perChan v23)

/-- The normalised block at (row, column, channel) is the pixel's LayerNorm at the channel. -/
theorem ln_apply (v0 : Vec Ideal S1x256x8x256 .f32) (v19 v23 : Vec Ideal S256 .f32) (r : Fin 8) (w c : Fin 256) :
    ln v0 v19 v23 (ix3 r w c)
      = lnRow (fun c => v0 (ix4 u0 c r w)) (fun c => v19 (ix1 c)) (fun c => v23 (ix1 c)) c := by
  unfold ln lnRow
  show ctr v0 (ix3 r w c) * broadcastTo S8x256x256 (rs v0) broadcasts_S8x256x1_S8x256x256 (ix3 r w c)
    * perChan v19 (ix3 r w c) + perChan v23 (ix3 r w c) = _
  rw [ctr_apply, spread_apply, rs_apply, perChan_apply, perChan_apply]

/-- The normalised block flattened to 2048 pixels by 256 channels, in the matrix unit's input format. -/
def lnFlat (v0 : Vec Ideal S1x256x8x256 .f32) (v19 v23 : Vec Ideal S256 .f32) : FVec Ideal S2048x256 .bf16 :=
  truncf .bf16 (shapeCast S2048x256 (ln v0 v19 v23) shapeCasts_S8x256x256_S2048x256) bitsLt_bf16_f32

/-- Row 256 r + w of the flattened block is the pixel at row r, column w. -/
theorem lnFlat_apply (v0 : Vec Ideal S1x256x8x256 .f32) (v19 v23 : Vec Ideal S256 .f32) (r : Fin 8) (w c : Fin 256) :
    lnFlat v0 v19 v23 (ix2 (pix r w) c)
      = lnRow (fun c => v0 (ix4 u0 c r w)) (fun c => v19 (ix1 c)) (fun c => v23 (ix1 c)) c := by
  unfold lnFlat
  show shapeCast S2048x256 (ln v0 v19 v23) shapeCasts_S8x256x256_S2048x256 (ix2 (pix r w) c) = _
  refine (shapeCast_apply _ _ (ix2 (pix r w) c) (ix3 r w c) ?_).trans (ln_apply v0 v19 v23 r w c)
  rw [Shape.rowMajor_val_three, Shape.rowMajor_val_two]
  show (r.val * 256 + w.val) * 256 + c.val = (r.val * 256 + w.val) * 256 + c.val
  rfl

/-- The projection's dimension numbers: 2048 x 256 times 256 x 768, contracting the channels. -/
abbrev dotQ : DotDims S2048x256 S256x768 S2048x768 := dot_S2048x256_S256x768_S2048x768_1_0_0_1_n_n

/-- The left operand's row is the output's row, -/
theorem dotQ_lhs0 (i : S2048x768.Idx) (q : dotQ.contr.Idx) : (dotQ.lhsIdx i q 0).val = (i 0).val := by
  unfold DotDims.lhsIdx
  rw [dif_neg (show ¬(0 : Fin S2048x256.rank) ∈ dotQ.lhsBatch by decide),
    dif_pos (show (0 : Fin S2048x256.rank) ∈ dotQ.lhsNonContracting by decide)]
  rfl
/-- its column the contraction position; -/
theorem dotQ_lhs1 (i : S2048x768.Idx) (q : dotQ.contr.Idx) : (dotQ.lhsIdx i q 1).val = (q ⟨0, by decide⟩).val :=
  dotQ.lhsIdx_val_of_single rfl i q
/-- the right operand's row is the contraction position, -/
theorem dotQ_rhs0 (i : S2048x768.Idx) (q : dotQ.contr.Idx) : (dotQ.rhsIdx i q 0).val = (q ⟨0, by decide⟩).val :=
  dotQ.rhsIdx_val_of_single rfl i q
/-- its column the output's column. -/
theorem dotQ_rhs1 (i : S2048x768.Idx) (q : dotQ.contr.Idx) : (dotQ.rhsIdx i q 1).val = (i 1).val := by
  unfold DotDims.rhsIdx
  rw [dif_neg (show ¬(1 : Fin S256x768.rank) ∈ dotQ.rhsBatch by decide),
    dif_pos (show (1 : Fin S256x768.rank) ∈ dotQ.rhsNonContracting by decide)]
  rfl

/-- The kernel's value is the product of the flattened normalised block and the weights, added to a zero block. -/
theorem pay3_eq (v0 : Vec Ideal S1x256x8x256 .f32) (v19 v23 : Vec Ideal S256 .f32) (v29 : Vec Ideal S256x768 .bf16) :
    k0_pay3 (F := Ideal) v0 v19 v23 v29
      = matmul dotQ none (lnFlat v0 v19 v23) (shapeCast S256x768 v29 shapeCasts_S256x768_S256x768 : FVec Ideal S256x768 .bf16)
          (constant S2048x768 .f32 0x00000000#32) := rfl

/-- The projected channels of the band's pixels. -/
theorem pay3_apply (v0 : Vec Ideal S1x256x8x256 .f32) (v19 v23 : Vec Ideal S256 .f32) (v29 : Vec Ideal S256x768 .bf16)
    (r : Fin 8) (w : Fin 256) (f : Fin 768) :
    k0_pay3 (F := Ideal) v0 v19 v23 v29 (ix2 (pix r w) f)
      = qkvRow (fun c => v0 (ix4 u0 c r w)) (fun c => v19 (ix1 c)) (fun c => v23 (ix1 c)) (fun f c => v29 (ix2 c f)) f := by
  rw [pay3_eq, shapeCast_self]
  unfold qkvRow
  refine (Ideal.matmul_constant_zero_apply dotQ none (lnFlat v0 v19 v23) (v29 : FVec Ideal S256x768 .bf16) (ix2 (pix r w) f)).trans ?_
  rw [← Equiv.sum_comp (contrEquiv1 dotQ 256 rfl rfl).symm]
  refine Finset.sum_congr rfl fun c _ => ?_
  have hk := contrEquiv1_symm_val dotQ 256 rfl rfl c
  have el : dotQ.lhsIdx (ix2 (pix r w) f) ((contrEquiv1 dotQ 256 rfl rfl).symm c) = ix2 (pix r w) c :=
    funext fun a => Fin.ext (by
      match a with
      | ⟨0, _⟩ => exact dotQ_lhs0 _ _
      | ⟨1, _⟩ => exact (dotQ_lhs1 _ _).trans hk)
  have er : dotQ.rhsIdx (ix2 (pix r w) f) ((contrEquiv1 dotQ 256 rfl rfl).symm c) = ix2 c f :=
    funext fun a => Fin.ext (by
      match a with
      | ⟨0, _⟩ => exact (dotQ_rhs0 _ _).trans hk
      | ⟨1, _⟩ => exact dotQ_rhs1 _ _)
  rw [el, er, lnFlat_apply]

end Cert.LocalAttn.Kernel

end
-- ==== Proof.KernelWindows.lean ====
/-
  The kernel's queries, keys and values per (window, head), read at an index: a column slice of the 2048 x 768
  projection, viewed [8, 32, 8, 4, 64] (row, window, column in the window, head, coordinate), transposed to
  [32, 4, 8, 8, 64] and flattened to [128, 64, 64].
-/
import proofs.«100162_j21328807592345_2_alg».proof.Proof.Gen.KernelIdeal.Skeleton
import proofs.«100162_j21328807592345_2_alg».proof.Proof.WindowAttention
import Idealize.ShloMosaic.Lib.Pipeline.Value
import Idealize.ShloMosaic.Lib.ValueIdxCoords
import Idealize.ShloMosaic.PureOps.Ideal.Laws

noncomputable section

namespace Cert.LocalAttn.Kernel

open Cert.KernelIdeal Cert.KernelIdeal.Gen Idealize.ShloMosaic Idealize.ShloMosaic.ValueIdx Cert.LocalAttn

/-! ## The four layout operations, one at a time

Each lemma reads one operation at an index built from coordinates and names the operand's index, again by
coordinates; the arithmetic relating the two is linear with division and remainder by the literal 8. -/

section Layout
variable {α : Type}

/-- Flattening [32, 4, 8, 8, 64] to [128, 64, 64]: batch entry `4 mw + hd`, token `q`, coordinate `d` is the entry at
    window `mw`, head `hd`, window row `q / 8`, window column `q % 8`, coordinate `d`
    (`64 (4 mw + hd) + q = 8 (8 (4 mw + hd) + q / 8) + q % 8`). -/
theorem flatten_apply (x : S32x4x8x8x64.Idx → α) (h : S32x4x8x8x64.ShapeCasts S128x64x64)
    (mw : Fin 32) (hd : Fin 4) (q d : Fin 64) :
    shapeCast S128x64x64 x h (ix3 (wh mw hd) q d) = x (ix5 mw hd (tokRow q) (tokCol q) d) := by
  refine shapeCast_apply x h _ _ ?_
  rw [Shape.rowMajor_val_five, Shape.rowMajor_val_three]
  show (((mw.val * 4 + hd.val) * 8 + q.val / 8) * 8 + q.val % 8) * 64 + d.val
      = ((mw.val * 4 + hd.val) * 64 + q.val) * 64 + d.val
  omega

/-- The transpose by [1, 3, 0, 2, 4] of [8, 32, 8, 4, 64]: result axes (window, head, row, column, coordinate) are source
    axes 1, 3, 0, 2, 4. -/
theorem swap_apply (x : S8x32x8x4x64.Idx → α) (h : S8x32x8x4x64.Transposes [1, 3, 0, 2, 4] S32x4x8x8x64)
    (mw : Fin 32) (hd : Fin 4) (r c : Fin 8) (d : Fin 64) :
    transpose S32x4x8x8x64 [1, 3, 0, 2, 4] x h (ix5 mw hd r c d) = x (ix5 r mw c hd d) := by
  refine transpose_apply [1, 3, 0, 2, 4] x h _ _ fun b => ?_
  match b with
  | ⟨0, _⟩ => rfl
  | ⟨1, _⟩ => rfl
  | ⟨2, _⟩ => rfl
  | ⟨3, _⟩ => rfl
  | ⟨4, _⟩ => rfl

/-- Viewing 2048 x 256 as [8, 32, 8, 4, 64]: row `r`, window `mw`, window column `c`, head `hd`, coordinate `d` is pixel
    `256 r + (8 mw + c)`, channel `64 hd + d` (`8 (32 r + mw) + c = 256 r + 8 mw + c`). -/
theorem view_apply (x : S2048x256.Idx → α) (h : S2048x256.ShapeCasts S8x32x8x4x64)
    (mw : Fin 32) (hd : Fin 4) (r c : Fin 8) (d : Fin 64) :
    shapeCast S8x32x8x4x64 x h (ix5 r mw c hd d) = x (ix2 (pix r (pos mw c)) (chanO hd d)) := by
  refine shapeCast_apply x h _ _ ?_
  rw [Shape.rowMajor_val_two, Shape.rowMajor_val_five]
  show (r.val * 256 + (mw.val * 8 + c.val)) * 256 + (hd.val * 64 + d.val)
      = (((r.val * 32 + mw.val) * 8 + c.val) * 4 + hd.val) * 64 + d.val
  omega

/-- The 256 columns from column `off` on: pixel `p`, channel `64 hd + d` of the slice is channel `off + 64 hd + d`. -/
theorem cols_apply (off : Nat) (hoff : off + 256 ≤ 768) (x : S2048x768.Idx → α) (h : S2048x768.Slices ![0, off] S2048x256)
    (p : Fin 2048) (hd : Fin 4) (d : Fin 64) :
    extractStridedSlice S2048x256 ![0, off] x h (ix2 p (chanO hd d)) = x (ix2 p (chan off hoff hd d)) := by
  refine extractStridedSlice_apply ![0, off] x h _ _ fun a => ?_
  match a with
  | ⟨0, _⟩ => show p.val = 0 + p.val; omega
  | ⟨1, _⟩ => show off + (hd.val * 64 + d.val) = off + (hd.val * 64 + d.val); rfl

/-- The four operations in a row, on an arbitrary 2048 x 768 operand and column offset. -/
theorem window_apply (off : Nat) (hoff : off + 256 ≤ 768) (y : S2048x768.Idx → α)
    (hs : S2048x768.Slices ![0, off] S2048x256) (hv : S2048x256.ShapeCasts S8x32x8x4x64)
    (ht : S8x32x8x4x64.Transposes [1, 3, 0, 2, 4] S32x4x8x8x64) (hf : S32x4x8x8x64.ShapeCasts S128x64x64)
    (mw : Fin 32) (hd : Fin 4) (q d : Fin 64) :
    shapeCast S128x64x64
        (transpose S32x4x8x8x64 [1, 3, 0, 2, 4]
          (shapeCast S8x32x8x4x64 (extractStridedSlice S2048x256 ![0, off] y hs) hv) ht) hf (ix3 (wh mw hd) q d)
      = y (ix2 (pix (tokRow q) (pos mw (tokCol q))) (chan off hoff hd d)) := by
  refine (flatten_apply _ hf mw hd q d).trans ?_
  refine (swap_apply _ ht mw hd (tokRow q) (tokCol q) d).trans ?_
  refine (view_apply _ hv mw hd (tokRow q) (tokCol q) d).trans ?_
  exact cols_apply off hoff y hs _ hd d

end Layout

/-- The queries of window `mw`, head `hd`: token `q`, coordinate `d` is projected channel `0 + 64 hd + d` of the pixel
    at row `q / 8`, column `8 mw + q % 8` of the band. -/
theorem pay4_apply (v0 : Vec Ideal S1x256x8x256 .f32) (v19 v23 : Vec Ideal S256 .f32) (v29 : Vec Ideal S256x768 .bf16)
    (mw : Fin 32) (hd : Fin 4) (q d : Fin 64) :
    k0_pay4 (F := Ideal) v0 v19 v23 v29 (ix3 (wh mw hd) q d)
      = k0_pay3 (F := Ideal) v0 v19 v23 v29 (ix2 (pix (tokRow q) (pos mw (tokCol q))) (chan 0 (by omega) hd d)) :=
  window_apply 0 (by omega) (k0_pay3 (F := Ideal) v0 v19 v23 v29) _ _ _ _ mw hd q d

/-- The keys of window `mw`, head `hd`: token `q`, coordinate `d` is projected channel `256 + 64 hd + d` of the pixel
    at row `q / 8`, column `8 mw + q % 8` of the band. -/
theorem pay5_apply (v0 : Vec Ideal S1x256x8x256 .f32) (v19 v23 : Vec Ideal S256 .f32) (v29 : Vec Ideal S256x768 .bf16)
    (mw : Fin 32) (hd : Fin 4) (q d : Fin 64) :
    k0_pay5 (F := Ideal) v0 v19 v23 v29 (ix3 (wh mw hd) q d)
      = k0_pay3 (F := Ideal) v0 v19 v23 v29 (ix2 (pix (tokRow q) (pos mw (tokCol q))) (chan 256 (by omega) hd d)) :=
  window_apply 256 (by omega) (k0_pay3 (F := Ideal) v0 v19 v23 v29) _ _ _ _ mw hd q d

/-- The values of window `mw`, head `hd`: token `q`, coordinate `d` is projected channel `512 + 64 hd + d` of the pixel
    at row `q / 8`, column `8 mw + q % 8` of the band. -/
theorem pay6_apply (v0 : Vec Ideal S1x256x8x256 .f32) (v19 v23 : Vec Ideal S256 .f32) (v29 : Vec Ideal S256x768 .bf16)
    (mw : Fin 32) (hd : Fin 4) (q d : Fin 64) :
    k0_pay6 (F := Ideal) v0 v19 v23 v29 (ix3 (wh mw hd) q d)
      = k0_pay3 (F := Ideal) v0 v19 v23 v29 (ix2 (pix (tokRow q) (pos mw (tokCol q))) (chan 512 (by omega) hd d)) :=
  window_apply 512 (by omega) (k0_pay3 (F := Ideal) v0 v19 v23 v29) _ _ _ _ mw hd q d

end Cert.LocalAttn.Kernel

end
-- ==== Proof.KernelTerms.lean ====
/-
  The attention half of the kernel's body, cut in two named terms: the 128 (window, head) attention outputs as a
  function of the windows' queries, keys and values (`headsK`), and what the body stores as a function of those
  outputs, the output projection's weights and the input block (`mergeK`). The body's stored value is the second applied
  to the first, by unfolding.
-/
import proofs.«100162_j21328807592345_2_alg».proof.Proof.Gen.KernelIdeal.Skeleton

noncomputable section

namespace Cert.LocalAttn.Kernel

open Cert.KernelIdeal Cert.KernelIdeal.Gen Idealize.ShloMosaic

variable {F : FTy → Type} [FloatOps F]

/-- Scores, softmax over the keys and the weighted values, for the 128 (window, head) pairs of a band at once. -/
def headsK (v37 v40 v43 : FVec F S128x64x64 .f32) : FVec F S128x64x64 .f32 :=
  have v44 : FVec F S128x64x64 .bf16 := truncf .bf16 v37 bitsLt_bf16_f32
  have v45 : FVec F S128x64x64 .bf16 := truncf .bf16 v40 bitsLt_bf16_f32
  have cst_12 : FVec F S128x64x64 .f32 := constant S128x64x64 .f32 0x00000000#32
  have v46 : FVec F S128x64x64 .f32 := matmul dot_S128x64x64_S128x64x64_S128x64x64_2_2_1_1_0_0 none v44 v45 cst_12
  have cst_13 : F .f32 := Scalar.ofBits .f32 0x3E000000#32
  have v47 : FVec F S128x64x64 .f32 := broadcast S128x64x64 cst_13
  have v48 : FVec F S128x64x64 .f32 := mulf v46 v47
  have v49 : FVec F S128x64 .f32 := multiReduction .maximumf [2] S128x64 v48 0xFF800000#32 reduces_S128x64x64_S128x64 (.inl rfl) rfl
  have cst_15 : F .f32 := Scalar.ofBits .f32 0xFF800000#32
  have v50 : FVec F S128x64 .f32 := broadcast S128x64 cst_15
  have v51 : FVec F S128x64 .f32 := maximumf v50 v49
  have v52 : FVec F S128x64x1 .f32 := shapeCast S128x64x1 v51 shapeCasts_S128x64_S128x64x1
  have v53 : FVec F S128x64x64 .f32 := broadcastTo S128x64x64 v52 broadcasts_S128x64x1_S128x64x64
  have v54 : FVec F S128x64x64 .f32 := subf v48 v53
  have v55 : FVec F S128x64x64 .f32 := exp v54
  have v56 : FVec F S128x64 .f32 := multiReduction .add [2] S128x64 v55 0x00000000#32 reduces_S128x64x64_S128x64 (.inl rfl) rfl
  have v57 : FVec F S128x64x1 .f32 := shapeCast S128x64x1 v56 shapeCasts_S128x64_S128x64x1
  have v58 : FVec F S128x64x64 .f32 := broadcastTo S128x64x64 v57 broadcasts_S128x64x1_S128x64x64
  have v59 : FVec F S128x64x64 .f32 := divf v55 v58
  have v60 : FVec F S128x64x64 .bf16 := truncf .bf16 v59 bitsLt_bf16_f32
  have v61 : FVec F S128x64x64 .bf16 := truncf .bf16 v43 bitsLt_bf16_f32
  have cst_17 : FVec F S128x64x64 .f32 := constant S128x64x64 .f32 0x00000000#32
  have v62 : FVec F S128x64x64 .f32 := matmul dot_S128x64x64_S128x64x64_S128x64x64_2_1_1_2_0_0 none v60 v61 cst_17
  v62

/-- The heads' outputs laid back pixel by pixel, projected, moved channel-first, and added to the input block. -/
def mergeK (v1 : FVec F S256x8x256 .f32) (v62 : FVec F S128x64x64 .f32) (v68 : Vec F S256x256 .bf16) : FVec F S1x256x8x256 .f32 :=
  have v63 : FVec F S32x4x8x8x64 .f32 := shapeCast S32x4x8x8x64 v62 shapeCasts_S128x64x64_S32x4x8x8x64
  have v64 : FVec F S8x32x8x4x64 .f32 := transpose S8x32x8x4x64 [2, 0, 3, 1, 4] v63 transposes_S32x4x8x8x64_p2_0_3_1_4_S8x32x8x4x64
  have v65 : FVec F S8x256x256 .f32 := shapeCast S8x256x256 v64 shapeCasts_S8x32x8x4x64_S8x256x256
  have v66 : FVec F S2048x256 .f32 := shapeCast S2048x256 v65 shapeCasts_S8x256x256_S2048x256
  have v67 : FVec F S2048x256 .bf16 := truncf .bf16 v66 bitsLt_bf16_f32
  have v69 : FVec F S256x256 .bf16 := shapeCast S256x256 v68 shapeCasts_S256x256_S256x256
  have cst_20 : FVec F S2048x256 .f32 := constant S2048x256 .f32 0x00000000#32
  have v70 : FVec F S2048x256 .f32 := matmul dot_S2048x256_S256x256_S2048x256_1_0_0_1_n_n none v67 v69 cst_20
  have v71 : FVec F S8x256x256 .f32 := shapeCast S8x256x256 v70 shapeCasts_S2048x256_S8x256x256
  have v72 : FVec F S256x8x256 .f32 := transpose S256x8x256 [2, 0, 1] v71 transposes_S8x256x256_p2_0_1_S256x8x256
  have v73 : FVec F S256x8x256 .f32 := addf v72 v1
  have v76 : FVec F S1x256x8x256 .f32 := shapeCast S1x256x8x256 v73 shapeCasts_S256x8x256_S1x256x8x256
  v76

/-- The stored value is `mergeK` of `headsK`. -/
theorem pay1_eq (v1 : FVec F S256x8x256 .f32) (v37 v40 v43 : FVec F S128x64x64 .f32) (v68 : Vec F S256x256 .bf16) :
    k0_pay1 v1 v37 v40 v43 v68 = mergeK v1 (headsK v37 v40 v43) v68 := rfl

end Cert.LocalAttn.Kernel

end
-- ==== Proof.KernelHeads.lean ====
/-
  The kernel's 128 attention heads read at an index: entry (g, q, d) is the attention function of batch entry `g`'s
  queries, keys and values.

  The term is read operation by operation. The two batched products are sums over the contracted coordinate; the lane
  maximum is a fold of `max` over a row and the lane sum a sum over it; a per-row value given a unit lane axis and
  broadcast along the lanes is that row's value at every lane; everything else is pointwise. Chained, the entry at
  (g, q, d) is the softmax-weighted sum of batch entry `g`'s values.
-/
import proofs.«100162_j21328807592345_2_alg».proof.Proof.Gen.KernelIdeal.Skeleton
import proofs.«100162_j21328807592345_2_alg».proof.Proof.KernelTerms
import proofs.«100162_j21328807592345_2_alg».proof.Proof.WindowAttention
import Idealize.ShloMosaic.Lib.Pipeline.Value
import Idealize.ShloMosaic.Lib.ValueIdxCoords
import Idealize.ShloMosaic.PureOps.Ideal.Laws

noncomputable section

namespace Cert.LocalAttn.Kernel

open Cert.KernelIdeal Cert.KernelIdeal.Gen Idealize.ShloMosaic Idealize.ShloMosaic.ValueIdx Cert.LocalAttn

/-! ## The two batched products read at an index -/

/-- The dimension numbers of the scores' product: batch axis 0, both operands contracted on axis 2. -/
abbrev dQK : DotDims S128x64x64 S128x64x64 S128x64x64 := dot_S128x64x64_S128x64x64_S128x64x64_2_2_1_1_0_0
/-- The dimension numbers of the weighted values' product: batch axis 0, axis 2 of the weights against axis 1 of the values. -/
abbrev dAV : DotDims S128x64x64 S128x64x64 S128x64x64 := dot_S128x64x64_S128x64x64_S128x64x64_2_1_1_2_0_0

theorem lhsQK_0 (i : S128x64x64.Idx) (c : dQK.contr.Idx) : (dQK.lhsIdx i c 0).val = (i 0).val := by
  unfold DotDims.lhsIdx
  rw [dif_pos (show (0 : Fin S128x64x64.rank) ∈ dQK.lhsBatch by decide)]
  rfl
theorem lhsQK_1 (i : S128x64x64.Idx) (c : dQK.contr.Idx) : (dQK.lhsIdx i c 1).val = (i 1).val := by
  unfold DotDims.lhsIdx
  rw [dif_neg (show ¬(1 : Fin S128x64x64.rank) ∈ dQK.lhsBatch by decide),
    dif_pos (show (1 : Fin S128x64x64.rank) ∈ dQK.lhsNonContracting by decide)]
  rfl
theorem lhsQK_2 (i : S128x64x64.Idx) (c : dQK.contr.Idx) : (dQK.lhsIdx i c 2).val = (c ⟨0, by decide⟩).val :=
  dQK.lhsIdx_val_of_single rfl i c
theorem rhsQK_0 (i : S128x64x64.Idx) (c : dQK.contr.Idx) : (dQK.rhsIdx i c 0).val = (i 0).val := by
  unfold DotDims.rhsIdx
  rw [dif_pos (show (0 : Fin S128x64x64.rank) ∈ dQK.rhsBatch by decide)]
  rfl
theorem rhsQK_1 (i : S128x64x64.Idx) (c : dQK.contr.Idx) : (dQK.rhsIdx i c 1).val = (i 2).val := by
  unfold DotDims.rhsIdx
  rw [dif_neg (show ¬(1 : Fin S128x64x64.rank) ∈ dQK.rhsBatch by decide),
    dif_pos (show (1 : Fin S128x64x64.rank) ∈ dQK.rhsNonContracting by decide)]
  rfl
theorem rhsQK_2 (i : S128x64x64.Idx) (c : dQK.contr.Idx) : (dQK.rhsIdx i c 2).val = (c ⟨0, by decide⟩).val :=
  dQK.rhsIdx_val_of_single rfl i c

/-- The first product at (g, q, k): the inner product of query row q and key row k of batch entry g. -/
theorem matmulQK_apply (a b : FVec Ideal S128x64x64 .bf16) (g : Fin 128) (q k : Fin 64) :
    matmul dQK none a b (constant S128x64x64 .f32 0x00000000#32) (ix3 g q k)
      = ∑ d : Fin 64, a (ix3 g q d) * b (ix3 g k d) := by
  show FloatOps.matmul dQK none a b (constant S128x64x64 .f32 0x00000000#32) (ix3 g q k) = _
  rw [Ideal.matmul_constant_zero_apply, ← Equiv.sum_comp (contrEquiv1 dQK 64 rfl rfl).symm]
  refine Finset.sum_congr rfl fun d _ => ?_
  have hd := contrEquiv1_symm_val dQK 64 rfl rfl d
  have el : dQK.lhsIdx (ix3 g q k) ((contrEquiv1 dQK 64 rfl rfl).symm d) = ix3 g q d := funext fun c => Fin.ext (by
    match c with
    | ⟨0, _⟩ => exact lhsQK_0 _ _
    | ⟨1, _⟩ => exact lhsQK_1 _ _
    | ⟨2, _⟩ => exact (lhsQK_2 _ _).trans hd)
  have er : dQK.rhsIdx (ix3 g q k) ((contrEquiv1 dQK 64 rfl rfl).symm d) = ix3 g k d := funext fun c => Fin.ext (by
    match c with
    | ⟨0, _⟩ => exact rhsQK_0 _ _
    | ⟨1, _⟩ => exact rhsQK_1 _ _
    | ⟨2, _⟩ => exact (rhsQK_2 _ _).trans hd)
  rw [el, er]

theorem lhsAV_0 (i : S128x64x64.Idx) (c : dAV.contr.Idx) : (dAV.lhsIdx i c 0).val = (i 0).val := by
  unfold DotDims.lhsIdx
  rw [dif_pos (show (0 : Fin S128x64x64.rank) ∈ dAV.lhsBatch by decide)]
  rfl
theorem lhsAV_1 (i : S128x64x64.Idx) (c : dAV.contr.Idx) : (dAV.lhsIdx i c 1).val = (i 1).val := by
  unfold DotDims.lhsIdx
  rw [dif_neg (show ¬(1 : Fin S128x64x64.rank) ∈ dAV.lhsBatch by decide),
    dif_pos (show (1 : Fin S128x64x64.rank) ∈ dAV.lhsNonContracting by decide)]
  rfl
theorem lhsAV_2 (i : S128x64x64.Idx) (c : dAV.contr.Idx) : (dAV.lhsIdx i c 2).val = (c ⟨0, by decide⟩).val :=
  dAV.lhsIdx_val_of_single rfl i c
theorem rhsAV_0 (i : S128x64x64.Idx) (c : dAV.contr.Idx) : (dAV.rhsIdx i c 0).val = (i 0).val := by
  unfold DotDims.rhsIdx
  rw [dif_pos (show (0 : Fin S128x64x64.rank) ∈ dAV.rhsBatch by decide)]
  rfl
theorem rhsAV_1 (i : S128x64x64.Idx) (c : dAV.contr.Idx) : (dAV.rhsIdx i c 1).val = (c ⟨0, by decide⟩).val :=
  dAV.rhsIdx_val_of_single rfl i c
theorem rhsAV_2 (i : S128x64x64.Idx) (c : dAV.contr.Idx) : (dAV.rhsIdx i c 2).val = (i 2).val := by
  unfold DotDims.rhsIdx
  rw [dif_neg (show ¬(2 : Fin S128x64x64.rank) ∈ dAV.rhsBatch by decide),
    dif_pos (show (2 : Fin S128x64x64.rank) ∈ dAV.rhsNonContracting by decide)]
  rfl

/-- The second product at (g, q, d): row q of batch entry g's weights against column d of its values. -/
theorem matmulAV_apply (a b : FVec Ideal S128x64x64 .bf16) (g : Fin 128) (q d : Fin 64) :
    matmul dAV none a b (constant S128x64x64 .f32 0x00000000#32) (ix3 g q d)
      = ∑ k : Fin 64, a (ix3 g q k) * b (ix3 g k d) := by
  show FloatOps.matmul dAV none a b (constant S128x64x64 .f32 0x00000000#32) (ix3 g q d) = _
  rw [Ideal.matmul_constant_zero_apply, ← Equiv.sum_comp (contrEquiv1 dAV 64 rfl rfl).symm]
  refine Finset.sum_congr rfl fun k _ => ?_
  have hk := contrEquiv1_symm_val dAV 64 rfl rfl k
  have el : dAV.lhsIdx (ix3 g q d) ((contrEquiv1 dAV 64 rfl rfl).symm k) = ix3 g q k := funext fun c => Fin.ext (by
    match c with
    | ⟨0, _⟩ => exact lhsAV_0 _ _
    | ⟨1, _⟩ => exact lhsAV_1 _ _
    | ⟨2, _⟩ => exact (lhsAV_2 _ _).trans hk)
  have er : dAV.rhsIdx (ix3 g q d) ((contrEquiv1 dAV 64 rfl rfl).symm k) = ix3 g k d := funext fun c => Fin.ext (by
    match c with
    | ⟨0, _⟩ => exact rhsAV_0 _ _
    | ⟨1, _⟩ => exact (rhsAV_1 _ _).trans hk
    | ⟨2, _⟩ => exact rhsAV_2 _ _)
  rw [el, er]

/-! ## The lane reductions, and a per-row value broadcast along the lanes, read at an index -/

/-- The index (g, q) of a row with the lane coordinate k inserted is (g, q, k). -/
theorem lift_ix (g : Fin 128) (q k : Fin 64) :
    reduces_S128x64x64_S128x64.lift (ix2 g q) k = ix3 g q k := by
  funext c
  apply Fin.ext
  match c with
  | ⟨0, _⟩ => rfl
  | ⟨1, _⟩ => rfl
  | ⟨2, _⟩ => rfl

/-- The lane maximum at (g, q): the fold of max from minus infinity over the row's 64 entries. -/
theorem laneMax_apply (s : FVec Ideal S128x64x64 .f32) (g : Fin 128) (q : Fin 64) :
    multiReduction (F := Ideal) .maximumf [2] S128x64 s 0xFF800000#32 reduces_S128x64x64_S128x64 (.inl rfl) rfl (ix2 g q)
      = (Finset.univ : Finset (Fin 64)).fold max (Ideal.ofBits .f32 0xFF800000#32) fun k => s (ix3 g q k) := by
  refine (Ideal.multiReduction_maximumf_single s _ reduces_S128x64x64_S128x64 (.inl rfl) rfl (ix2 g q)).trans ?_
  have e : (s ∘ reduces_S128x64x64_S128x64.lift (ix2 g q)) = fun k : Fin 64 => s (ix3 g q k) :=
    funext fun k => congrArg s (lift_ix g q k)
  rw [e]
  rfl

/-- The lane sum at (g, q): the sum of the row's 64 entries. -/
theorem keySum_apply (s : FVec Ideal S128x64x64 .f32) (g : Fin 128) (q : Fin 64) :
    multiReduction (F := Ideal) .add [2] S128x64 s 0x00000000#32 reduces_S128x64x64_S128x64 (.inl rfl) rfl (ix2 g q)
      = ∑ k : Fin 64, s (ix3 g q k) := by
  refine (Ideal.multiReduction_add_single s _ reduces_S128x64x64_S128x64 (.inl rfl) rfl (ix2 g q)).trans ?_
  exact Finset.sum_congr rfl fun k _ => congrArg s (lift_ix g q k)

/-- A per-row value given a unit lane axis and broadcast along the lanes reads the row's value at every lane. -/
theorem rowBroadcast_apply (m : FVec Ideal S128x64 .f32) (g : Fin 128) (q k : Fin 64) :
    broadcastTo S128x64x64 (shapeCast S128x64x1 m shapeCasts_S128x64_S128x64x1) broadcasts_S128x64x1_S128x64x64 (ix3 g q k)
      = m (ix2 g q) := by
  refine (broadcastTo_apply _ broadcasts_S128x64x1_S128x64x64 (ix3 g q k) (ix3 g q u0) fun a => ?_).trans ?_
  · match a with
    | ⟨0, _⟩ => rfl
    | ⟨1, _⟩ => rfl
    | ⟨2, _⟩ => rfl
  · refine shapeCast_apply m shapeCasts_S128x64_S128x64x1 (ix3 g q u0) (ix2 g q) ?_
    rw [Shape.rowMajor_val_two, Shape.rowMajor_val_three]
    show g.val * 64 + q.val = (g.val * 64 + q.val) * 1 + 0
    omega

/-! ## The chain, operation by operation -/

/-- The scaled scores of every batch entry. -/
def scoresK (v37 v40 : FVec Ideal S128x64x64 .f32) : FVec Ideal S128x64x64 .f32 :=
  mulf (matmul dQK none (truncf .bf16 v37 bitsLt_bf16_f32) (truncf .bf16 v40 bitsLt_bf16_f32) (constant S128x64x64 .f32 0x00000000#32))
    (broadcast S128x64x64 (Scalar.ofBits .f32 0x3E000000#32))

/-- Each row's largest entry, taken once more against minus infinity. -/
def rowMaxK (s : FVec Ideal S128x64x64 .f32) : FVec Ideal S128x64 .f32 :=
  maximumf (broadcast S128x64 (Scalar.ofBits .f32 0xFF800000#32))
    (multiReduction .maximumf [2] S128x64 s 0xFF800000#32 reduces_S128x64x64_S128x64 (.inl rfl) rfl)

/-- The exponentials of the entries below their row's maximum. -/
def expoK (s : FVec Ideal S128x64x64 .f32) : FVec Ideal S128x64x64 .f32 :=
  exp (subf s (broadcastTo S128x64x64 (shapeCast S128x64x1 (rowMaxK s) shapeCasts_S128x64_S128x64x1) broadcasts_S128x64x1_S128x64x64))

/-- Each entry over its row's sum. -/
def weightsK (e : FVec Ideal S128x64x64 .f32) : FVec Ideal S128x64x64 .f32 :=
  divf e (broadcastTo S128x64x64
    (shapeCast S128x64x1 (multiReduction .add [2] S128x64 e 0x00000000#32 reduces_S128x64x64_S128x64 (.inl rfl) rfl)
      shapeCasts_S128x64_S128x64x1) broadcasts_S128x64x1_S128x64x64)

/-- The heads' outputs are the weights' product with the values. -/
theorem headsK_eq (v37 v40 v43 : FVec Ideal S128x64x64 .f32) :
    headsK (F := Ideal) v37 v40 v43
      = matmul dAV none (truncf .bf16 (weightsK (expoK (scoresK v37 v40))) bitsLt_bf16_f32) (truncf .bf16 v43 bitsLt_bf16_f32)
          (constant S128x64x64 .f32 0x00000000#32) := rfl

/-- The scores at (g, q, k) are batch entry g's scaled score of query q against key k. -/
theorem scoresK_apply (v37 v40 : FVec Ideal S128x64x64 .f32) (g : Fin 128) (q k : Fin 64) :
    scoresK v37 v40 (ix3 g q k) = score (fun q d => v37 (ix3 g q d)) (fun q d => v40 (ix3 g q d)) q k := by
  unfold scoresK score
  refine (mulf_apply _ _ _).trans ?_
  rw [matmulQK_apply]
  rfl

/-- The row maximum at (g, q). -/
theorem rowMaxK_apply (s : FVec Ideal S128x64x64 .f32) (g : Fin 128) (q : Fin 64) :
    rowMaxK s (ix2 g q)
      = max (Ideal.ofBits .f32 0xFF800000#32)
          ((Finset.univ : Finset (Fin 64)).fold max (Ideal.ofBits .f32 0xFF800000#32) fun k => s (ix3 g q k)) := by
  unfold rowMaxK
  refine (maximumf_apply _ _ _).trans ?_
  rw [laneMax_apply]
  rfl

/-- The scores' row maximum at (g, q) is batch entry g's largest score of query q. -/
theorem rowMaxK_scoresK_apply (v37 v40 : FVec Ideal S128x64x64 .f32) (g : Fin 128) (q : Fin 64) :
    rowMaxK (scoresK v37 v40) (ix2 g q) = rowMax (fun q d => v37 (ix3 g q d)) (fun q d => v40 (ix3 g q d)) q := by
  rw [rowMaxK_apply]
  unfold rowMax
  simp only [scoresK_apply]

/-- The exponentials at (g, q, k). -/
theorem expoK_apply (s : FVec Ideal S128x64x64 .f32) (g : Fin 128) (q k : Fin 64) :
    expoK s (ix3 g q k) = Ideal.exp (s (ix3 g q k) - rowMaxK s (ix2 g q)) := by
  unfold expoK
  show Ideal.exp (s (ix3 g q k) - broadcastTo S128x64x64 (shapeCast S128x64x1 (rowMaxK s) shapeCasts_S128x64_S128x64x1)
    broadcasts_S128x64x1_S128x64x64 (ix3 g q k)) = _
  rw [rowBroadcast_apply]

/-- The scores' exponentials at (g, q, k) are batch entry g's. -/
theorem expoK_scoresK_apply (v37 v40 : FVec Ideal S128x64x64 .f32) (g : Fin 128) (q k : Fin 64) :
    expoK (scoresK v37 v40) (ix3 g q k) = expo (fun q d => v37 (ix3 g q d)) (fun q d => v40 (ix3 g q d)) q k := by
  rw [expoK_apply, scoresK_apply, rowMaxK_scoresK_apply]
  rfl

/-- The weights at (g, q, k). -/
theorem weightsK_apply (e : FVec Ideal S128x64x64 .f32) (g : Fin 128) (q k : Fin 64) :
    weightsK e (ix3 g q k) = Ideal.div (e (ix3 g q k)) (∑ k' : Fin 64, e (ix3 g q k')) := by
  unfold weightsK
  refine (divf_apply _ _ _).trans ?_
  rw [rowBroadcast_apply, keySum_apply]

/-- The softmax weights at (g, q, k) are batch entry g's. -/
theorem weightsK_scoresK_apply (v37 v40 : FVec Ideal S128x64x64 .f32) (g : Fin 128) (q k : Fin 64) :
    weightsK (expoK (scoresK v37 v40)) (ix3 g q k)
      = weight (fun q d => v37 (ix3 g q d)) (fun q d => v40 (ix3 g q d)) q k := by
  rw [weightsK_apply]
  unfold weight
  simp only [expoK_scoresK_apply]

/-- Scores, softmax and weighted values, batch entry by batch entry. -/
theorem headsK_apply (v37 v40 v43 : FVec Ideal S128x64x64 .f32) (g : Fin 128) (q d : Fin 64) :
    headsK (F := Ideal) v37 v40 v43 (ix3 g q d)
      = attn (fun q d => v37 (ix3 g q d)) (fun q d => v40 (ix3 g q d)) (fun q d => v43 (ix3 g q d)) q d := by
  rw [headsK_eq]
  refine (matmulAV_apply _ _ g q d).trans ?_
  unfold attn
  refine Finset.sum_congr rfl fun k _ => ?_
  show weightsK (expoK (scoresK v37 v40)) (ix3 g q k) * v43 (ix3 g k d) = _
  rw [weightsK_scoresK_apply]

end Cert.LocalAttn.Kernel

end
-- ==== Proof.KernelMerge.lean ====
/-
  The tail of the kernel's body read at an index: the heads' outputs laid back pixel by pixel ([128, 64, 64] viewed
  [32, 4, 8, 8, 64], transposed to [8, 32, 8, 4, 64], flattened to 2048 x 256), projected by the 256 x 256 weights,
  moved channel-first and added to the input block.
-/
import proofs.«100162_j21328807592345_2_alg».proof.Proof.Gen.KernelIdeal.Skeleton
import proofs.«100162_j21328807592345_2_alg».proof.Proof.KernelTerms
import proofs.«100162_j21328807592345_2_alg».proof.Proof.WindowAttention
import Idealize.ShloMosaic.Lib.Pipeline.Value
import Idealize.ShloMosaic.Lib.ValueIdxCoords
import Idealize.ShloMosaic.PureOps.Ideal.Laws

noncomputable section

namespace Cert.LocalAttn.Kernel

open Cert.KernelIdeal Cert.KernelIdeal.Gen Idealize.ShloMosaic Idealize.ShloMosaic.ValueIdx Cert.LocalAttn

/-! ## The heads' outputs laid back pixel by pixel -/

/-- Row `256 r + w`, channel `c` of the flattened heads is batch entry `4 (w / 8) + c / 64`, token `8 r + w % 8`,
    coordinate `c % 64` of the heads' outputs: the four layout operations, one at a time. -/
theorem flat_apply {α : Type} (x : S128x64x64.Idx → α) (r : Fin 8) (w c : Fin 256) :
    shapeCast S2048x256
        (shapeCast S8x256x256
          (transpose S8x32x8x4x64 [2, 0, 3, 1, 4] (shapeCast S32x4x8x8x64 x shapeCasts_S128x64x64_S32x4x8x8x64)
            transposes_S32x4x8x8x64_p2_0_3_1_4_S8x32x8x4x64)
          shapeCasts_S8x32x8x4x64_S8x256x256)
        shapeCasts_S8x256x256_S2048x256 (ix2 (pix r w) c)
      = x (ix3 (wh (grp w) (headOf c)) (tok r (plc w)) (dimOf c)) := by
  have hr := r.isLt
  have hw := w.isLt
  have hc := c.isLt
  -- [2048, 256] from [8, 256, 256]: row 256 r + w is (r, w)
  refine (shapeCast_apply _ _ (ix2 (pix r w) c) (ix3 r w c) ?_).trans ?_
  · rw [Shape.rowMajor_val_three, Shape.rowMajor_val_two]
    show (r.val * 256 + w.val) * 256 + c.val = (r.val * 256 + w.val) * 256 + c.val
    rfl
  -- [8, 256, 256] from [8, 32, 8, 4, 64]: column 8 mw + ww, channel 64 hd + d
  refine (shapeCast_apply _ _ (ix3 r w c) (ix5 r (grp w) (plc w) (headOf c) (dimOf c)) ?_).trans ?_
  · rw [Shape.rowMajor_val_five, Shape.rowMajor_val_three]
    show (((r.val * 32 + w.val / 8) * 8 + w.val % 8) * 4 + c.val / 64) * 64 + c.val % 64 = (r.val * 256 + w.val) * 256 + c.val
    omega
  -- the transpose by [2, 0, 3, 1, 4]: (hh, mw, ww, hd, d) from (mw, hd, hh, ww, d)
  refine (transpose_apply _ _ _ (ix5 r (grp w) (plc w) (headOf c) (dimOf c)) (ix5 (grp w) (headOf c) r (plc w) (dimOf c))
    fun b => ?_).trans ?_
  · match b with
    | ⟨0, _⟩ => rfl
    | ⟨1, _⟩ => rfl
    | ⟨2, _⟩ => rfl
    | ⟨3, _⟩ => rfl
    | ⟨4, _⟩ => rfl
  -- [32, 4, 8, 8, 64] from [128, 64, 64]: batch 4 mw + hd, token 8 hh + ww
  refine shapeCast_apply _ _ (ix5 (grp w) (headOf c) r (plc w) (dimOf c)) (ix3 (wh (grp w) (headOf c)) (tok r (plc w)) (dimOf c)) ?_
  rw [Shape.rowMajor_val_five, Shape.rowMajor_val_three]
  show ((w.val / 8 * 4 + c.val / 64) * 64 + (r.val * 8 + w.val % 8)) * 64 + c.val % 64
    = (((w.val / 8 * 4 + c.val / 64) * 8 + r.val) * 8 + w.val % 8) * 64 + c.val % 64
  omega

/-! ## The projection -/

/-- The left operand's index of the projection's product at output `(p, f)` and contraction position `q`: row `p`, -/
theorem proj_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
/-- column the contraction position; -/
theorem proj_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- the right operand's: row the contraction position, -/
theorem proj_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- column `f`. -/
theorem proj_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product into the zero accumulator at `(p, f)`: the sum over the 256 channels `c` of the left operand at
    `(p, c)` times the right at `(c, f)`. -/
theorem proj_apply (a : FVec Ideal S2048x256 .bf16) (b : FVec Ideal S256x256 .bf16) (p : Fin 2048) (f : Fin 256) :
    matmul dot_S2048x256_S256x256_S2048x256_1_0_0_1_n_n none a b (constant (F := Ideal) S2048x256 .f32 0x00000000#32) (ix2 p f)
      = ∑ c : Fin 256, a (ix2 p c) * b (ix2 c f) := by
  refine (Ideal.matmul_constant_zero_apply dot_S2048x256_S256x256_S2048x256_1_0_0_1_n_n none a b (ix2 p f)).trans ?_
  rw [← Equiv.sum_comp (ValueIdx.contrEquiv1 dot_S2048x256_S256x256_S2048x256_1_0_0_1_n_n 256 rfl rfl).symm]
  refine Finset.sum_congr rfl fun c _ => ?_
  have hc := ValueIdx.contrEquiv1_symm_val dot_S2048x256_S256x256_S2048x256_1_0_0_1_n_n 256 rfl rfl c
  have el : dot_S2048x256_S256x256_S2048x256_1_0_0_1_n_n.lhsIdx (ix2 p f)
      ((ValueIdx.contrEquiv1 dot_S2048x256_S256x256_S2048x256_1_0_0_1_n_n 256 rfl rfl).symm c) = ix2 p c :=
    funext fun x => Fin.ext (by
      match x with
      | ⟨0, _⟩ => exact proj_lhs_0 _ _
      | ⟨1, _⟩ => exact (proj_lhs_1 _ _).trans hc)
  have er : dot_S2048x256_S256x256_S2048x256_1_0_0_1_n_n.rhsIdx (ix2 p f)
      ((ValueIdx.contrEquiv1 dot_S2048x256_S256x256_S2048x256_1_0_0_1_n_n 256 rfl rfl).symm c) = ix2 c f :=
    funext fun x => Fin.ext (by
      match x with
      | ⟨0, _⟩ => exact (proj_rhs_0 _ _).trans hc
      | ⟨1, _⟩ => exact proj_rhs_1 _ _)
  rw [el, er]

/-! ## The whole tail -/

/-- Output channel `f` of the pixel at row `r`, column `w`. -/
theorem mergeK_apply (v1 : FVec Ideal S256x8x256 .f32) (v62 : FVec Ideal S128x64x64 .f32) (v68 : Vec Ideal S256x256 .bf16)
    (f : Fin 256) (r : Fin 8) (w : Fin 256) :
    mergeK (F := Ideal) v1 v62 v68 (ix4 u0 f r w)
      = (∑ c : Fin 256, v62 (ix3 (wh (grp w) (headOf c)) (tok r (plc w)) (dimOf c)) * v68 (ix2 c f)) + v1 (ix3 f r w) := by
  have hr := r.isLt
  have hw := w.isLt
  have hf := f.isLt
  unfold mergeK
  -- the unit axis in front: (0, f, r, w) is (f, r, w)
  refine (shapeCast_apply _ _ (ix4 u0 f r w) (ix3 f r w) ?_).trans ?_
  · rw [Shape.rowMajor_val_three, Shape.rowMajor_val_four]
    show (f.val * 8 + r.val) * 256 + w.val = ((0 * 256 + f.val) * 8 + r.val) * 256 + w.val
    omega
  -- the sum with the input block, elementwise
  refine congrArg (· + v1 (ix3 f r w)) ?_
  -- channel first: (f, r, w) from (r, w, f)
  refine (transpose_apply _ _ _ (ix3 f r w) (ix3 r w f) fun b => ?_).trans ?_
  · match b with
    | ⟨0, _⟩ => rfl
    | ⟨1, _⟩ => rfl
    | ⟨2, _⟩ => rfl
  -- [8, 256, 256] from [2048, 256]: (r, w) is row 256 r + w
  refine (shapeCast_apply _ _ (ix3 r w f) (ix2 (pix r w) f) ?_).trans ?_
  · rw [Shape.rowMajor_val_two, Shape.rowMajor_val_three]
    show (r.val * 256 + w.val) * 256 + f.val = (r.val * 256 + w.val) * 256 + f.val
    rfl
  -- the projection, then each factor: the flattened heads, and the weights through the identity cast
  refine (proj_apply _ _ (pix r w) f).trans ?_
  refine Finset.sum_congr rfl fun c _ => ?_
  exact congrArg₂ (· * ·) (flat_apply v62 r w c) (congrFun (shapeCast_self v68 shapeCasts_S256x256_S256x256) (ix2 c f))

end Cert.LocalAttn.Kernel

end
-- ==== Proof.KernelBand.lean ====
/-
  The kernel's body as one function of its five input blocks: what it stores at channel `f`, row `r`, column `w` of the
  band is the band function (normalise, project, attend window by window and head by head, merge, project, add the
  input) of the band's pixels, the scale and shift vectors and the two weight matrices — the weights arriving
  transposed, contraction axis first. The four halves of the body, each read at an index, are composed here.
-/
import proofs.«100162_j21328807592345_2_alg».proof.Proof.KernelNormProject
import proofs.«100162_j21328807592345_2_alg».proof.Proof.KernelWindows
import proofs.«100162_j21328807592345_2_alg».proof.Proof.KernelHeads
import proofs.«100162_j21328807592345_2_alg».proof.Proof.KernelMerge

noncomputable section

namespace Cert.LocalAttn.Kernel

open Cert.KernelIdeal Cert.KernelIdeal.Gen Idealize.ShloMosaic Idealize.ShloMosaic.ValueIdx Cert.LocalAttn

/-- The body's stored value at (channel `f`, row `r`, column `w`) is the band function of the input blocks. -/
theorem body_apply (x0 : Vec Ideal S1x256x8x256 .f32) (x1 x2 : Vec Ideal S256 .f32) (x3 : Vec Ideal S256x768 .bf16)
    (x4 : Vec Ideal S256x256 .bf16) (f : Fin 256) (r : Fin 8) (w : Fin 256) :
    k0_pay1 (F := Ideal) (k0_pay2 x0) (k0_pay4 x0 x1 x2 x3) (k0_pay5 x0 x1 x2 x3) (k0_pay6 x0 x1 x2 x3) x4 (ix4 u0 f r w)
      = bandOut (fun c r w => x0 (ix4 u0 c r w)) (fun c => x1 (ix1 c)) (fun c => x2 (ix1 c)) (fun f c => x3 (ix2 c f))
          (fun f c => x4 (ix2 c f)) f r w := by
  rw [pay1_eq]
  refine (mergeK_apply _ _ _ f r w).trans ?_
  unfold bandOut
  rw [pay2_apply]
  refine congrArg (· + _) (Finset.sum_congr rfl fun c _ => ?_)
  refine congrArg (· * _) ?_
  rw [headsK_apply]
  unfold mergedB headB
  have hQ : (fun q d => k0_pay4 (F := Ideal) x0 x1 x2 x3 (ix3 (wh (grp w) (headOf c)) q d))
      = winB (fun c r w => x0 (ix4 u0 c r w)) (fun c => x1 (ix1 c)) (fun c => x2 (ix1 c)) (fun f c => x3 (ix2 c f)) 0 (by omega)
          (grp w) (headOf c) := by
    funext q d; rw [pay4_apply, pay3_apply]; rfl
  have hK : (fun q d => k0_pay5 (F := Ideal) x0 x1 x2 x3 (ix3 (wh (grp w) (headOf c)) q d))
      = winB (fun c r w => x0 (ix4 u0 c r w)) (fun c => x1 (ix1 c)) (fun c => x2 (ix1 c)) (fun f c => x3 (ix2 c f)) 256 (by omega)
          (grp w) (headOf c) := by
    funext q d; rw [pay5_apply, pay3_apply]; rfl
  have hV : (fun q d => k0_pay6 (F := Ideal) x0 x1 x2 x3 (ix3 (wh (grp w) (headOf c)) q d))
      = winB (fun c r w => x0 (ix4 u0 c r w)) (fun c => x1 (ix1 c)) (fun c => x2 (ix1 c)) (fun f c => x3 (ix2 c f)) 512 (by omega)
          (grp w) (headOf c) := by
    funext q d; rw [pay6_apply, pay3_apply]; rfl
  rw [hQ, hK, hV]

end Cert.LocalAttn.Kernel

end
-- ==== Proof.ImageAttention.lean ====
/-
  The whole result as one function of the five argument arrays: image `b`, channel `f`, row `h`, column `w` is the band
  function of band `h / 8` of image `b` — the eight image rows `8 (h / 8) … 8 (h / 8) + 7`, every channel, every column — at
  channel `f`, row `h % 8` of the band, column `w`.
-/
import proofs.«100162_j21328807592345_2_alg».proof.Proof.WindowAttention

noncomputable section

namespace Cert.LocalAttn

open Idealize.ShloMosaic Idealize.ShloMosaic.ValueIdx

/-- Windowed self-attention over the image, band by band. -/
def imageOut (A0 : (⟨4, ![4, 256, 256, 256]⟩ : Shape).Idx → EReal) (A1 A2 : (⟨1, ![256]⟩ : Shape).Idx → EReal)
    (A3 : (⟨2, ![768, 256]⟩ : Shape).Idx → EReal) (A4 : (⟨2, ![256, 256]⟩ : Shape).Idx → EReal) :
    (⟨4, ![4, 256, 256, 256]⟩ : Shape).Idx → EReal := fun i =>
  bandOut (fun c r w => A0 (ix4 (⟨(i 0).val, (i 0).isLt⟩ : Fin 4) c (pos (grp ⟨(i 2).val, (i 2).isLt⟩) r) w))
    (fun c => A1 (ix1 c)) (fun c => A2 (ix1 c)) (fun f c => A3 (ix2 f c)) (fun f c => A4 (ix2 f c))
    ⟨(i 1).val, (i 1).isLt⟩ (plc ⟨(i 2).val, (i 2).isLt⟩) ⟨(i 3).val, (i 3).isLt⟩

/-- A position is place `h % 8` of group `h / 8`. -/
theorem pos_grp_plc (h : Fin 256) : pos (grp h) (plc h) = h :=
  Fin.ext (by have := h.isLt; show h.val / 8 * 8 + h.val % 8 = h.val; omega)

/-- Position `8 n + r` lies in group `n` -/
theorem grp_of_pos (n : Fin 32) (r : Fin 8) : grp (pos n r) = n :=
  Fin.ext (by have := n.isLt; have := r.isLt; show (n.val * 8 + r.val) / 8 = n.val; omega)
/-- at place `r`. -/
theorem plc_of_pos (n : Fin 32) (r : Fin 8) : plc (pos n r) = r :=
  Fin.ext (by have := n.isLt; have := r.isLt; show (n.val * 8 + r.val) % 8 = r.val; omega)

/-- The whole-image function at an index of band `n` of image `b` — channel `f`, row `8 n + r`, column `w` — is the band
    function of that band. -/
theorem imageOut_band (A0 : (⟨4, ![4, 256, 256, 256]⟩ : Shape).Idx → EReal) (A1 A2 : (⟨1, ![256]⟩ : Shape).Idx → EReal)
    (A3 : (⟨2, ![768, 256]⟩ : Shape).Idx → EReal) (A4 : (⟨2, ![256, 256]⟩ : Shape).Idx → EReal)
    (b : Fin 4) (f : Fin 256) (n : Fin 32) (r : Fin 8) (w : Fin 256) (i : (⟨4, ![4, 256, 256, 256]⟩ : Shape).Idx)
    (h0 : (i 0).val = b.val) (h1 : (i 1).val = f.val) (h2 : (i 2).val = n.val * 8 + r.val) (h3 : (i 3).val = w.val) :
    imageOut A0 A1 A2 A3 A4 i
      = bandOut (fun c r w => A0 (ix4 b c (pos n r) w)) (fun c => A1 (ix1 c)) (fun c => A2 (ix1 c)) (fun f c => A3 (ix2 f c))
          (fun f c => A4 (ix2 f c)) f r w := by
  have hi : i = ix4 b f (pos n r) w := by
    funext a; apply Fin.ext
    match a with
    | ⟨0, _⟩ => exact h0
    | ⟨1, _⟩ => exact h1
    | ⟨2, _⟩ => exact h2
    | ⟨3, _⟩ => exact h3
  subst hi
  show bandOut (fun c r' w' => A0 (ix4 b c (pos (grp (pos n r)) r') w')) _ _ _ _ f (plc (pos n r)) w = _
  rw [grp_of_pos, plc_of_pos]

end Cert.LocalAttn

end
-- ==== Proof.KernelArray.lean ====
/-
  From blocks to the array. The grid has one point per (image, band); at a point the kernel reads band `n` of image `b`
  (every channel, eight rows, every column), the whole scale and shift vectors and the whole (transposed) weight
  matrices, and writes back band `n` of image `b` of the result. What it writes is the band function of what it read
  (`body_apply`), which is the whole-image function `imageOut` read through the band; the bands tile the array, so
  after the run the result array is `imageOut` of the arguments.
-/
import proofs.«100162_j21328807592345_2_alg».proof.Proof.Gen.KernelIdeal.Value
import proofs.«100162_j21328807592345_2_alg».proof.Proof.KernelBand
import proofs.«100162_j21328807592345_2_alg».proof.Proof.ImageAttention
import Idealize.ShloMosaic.Lib.StableHlo.Run

noncomputable section

namespace Cert.LocalAttn.Kernel

open Cert.KernelIdeal Cert.KernelIdeal.Gen Cert.KernelIdeal.Value Idealize.ShloMosaic Idealize.ShloMosaic.TcCoe Idealize.SL.Sem
open Idealize.ShloMosaic.ValueIdx Cert.LocalAttn
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The projection weights as the region finds them: the argument transposed (the change of float format is the
    identity on the extended reals). -/
theorem V_wqkv (c : Dev nD) :
    (V m c main_v1 : S256x768.Idx → EReal)
      = transpose S256x768 [1, 0] (m ((c : Thread nD τ).loc main_arg3)) transposes_S768x256_S256x768_1_0 := by
  dsimp only [Gen.V, Gen.hostOps0]; after_results; rfl

/-- The output projection's weights likewise. -/
theorem V_wout (c : Dev nD) :
    (V m c main_v3 : S256x256.Idx → EReal)
      = transpose S256x256 [1, 0] (m ((c : Thread nD τ).loc main_arg4)) transposes_S256x256_S256x256_1_0 := by
  dsimp only [Gen.V, Gen.hostOps0]; after_results; rfl

/-- The printed index maps, decided over the 128 grid points: the input band and the output band are the same band
    (image = the first grid coordinate, band = the second), and the other four windows are whole arrays. -/
theorem idx_facts : ∀ t : Fin cfg0.N,
    win0_0.index t (0 : Fin 4) = win0_5.index t (0 : Fin 4) ∧ win0_0.index t (1 : Fin 4) = 0
    ∧ win0_0.index t (2 : Fin 4) = win0_5.index t (2 : Fin 4) ∧ win0_0.index t (3 : Fin 4) = 0
    ∧ win0_5.index t (1 : Fin 4) = 0 ∧ win0_5.index t (3 : Fin 4) = 0
    ∧ win0_5.index t (0 : Fin 4) < 4 ∧ win0_5.index t (2 : Fin 4) < 32
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (image, band) is some point's. -/
theorem idx_onto : ∀ (q0 : Fin 4) (q2 : Fin 32), ∃ t : Fin cfg0.N, win0_5.index t = ![q0.val, 0, q2.val, 0] :=
  (by decide +kernel : ∀ (q0 : Fin 4) (q2 : Fin 32), ∃ t : Fin grid0.N, win0_5.index t = ![q0.val, 0, q2.val, 0])

/-- The result array as the whole-image function of the five arguments as launched. -/
abbrev resultOf (c : Dev nD) : S4x256x256x256.Idx → EReal :=
  imageOut (m ((c : Thread nD τ).loc main_arg0)) (m ((c : Thread nD τ).loc main_arg1)) (m ((c : Thread nD τ).loc main_arg2))
    (m ((c : Thread nD τ).loc main_arg3)) (m ((c : Thread nD τ).loc main_arg4))

/-- At point `t` the body's stored value, at an index of its block, is the whole-image function at that index's place in
    the array: image and band are the point's, and each input block is read where the output band says. -/
theorem band_eq (c : Dev nD) (t : Fin cfg0.N) (y : S1x256x8x256.Idx) :
    k0_pay1 (F := Ideal) (k0_pay2 (iblk m c 0 t)) (k0_pay4 (iblk m c 0 t) (iblk m c 1 t) (iblk m c 2 t) (iblk m c 3 t))
        (k0_pay5 (iblk m c 0 t) (iblk m c 1 t) (iblk m c 2 t) (iblk m c 3 t))
        (k0_pay6 (iblk m c 0 t) (iblk m c 1 t) (iblk m c 2 t) (iblk m c 3 t)) (iblk m c 4 t) y
      = resultOf m c (((cfg0.win 5).blk t).view.emb y) := by
  obtain ⟨e00, e01, e02, e03, e51, e53, l50, l52, e1, e2, e30, e31, e40, e41⟩ := idx_facts t
  obtain ⟨f, r, w, rfl⟩ : ∃ (f : Fin 256) (r : Fin 8) (w : Fin 256), y = ix4 u0 f r w :=
    ⟨y 1, y 2, y 3, (eq_ix4 y).trans (congrArg (fun a => ix4 a (y 1) (y 2) (y 3)) (Subsingleton.elim (α := Fin 1) (y 0) u0))⟩
  refine (body_apply (iblk m c 0 t) (iblk m c 1 t) (iblk m c 2 t) (iblk m c 3 t) (iblk m c 4 t) f r w).trans ?_
  refine Eq.trans ?_ (imageOut_band _ _ _ _ _ ⟨win0_5.index t (0 : Fin 4), l50⟩ f ⟨win0_5.index t (2 : Fin 4), l52⟩ r w
    (((cfg0.win 5).blk t).view.emb (ix4 u0 f r w)) ?_ ?_ ?_ ?_).symm
  · have h0 : (fun c' r' w' => iblk m c 0 t (ix4 u0 c' r' w'))
        = fun c' r' w' => m ((c : Thread nD τ).loc main_arg0)
            (ix4 ⟨win0_5.index t (0 : Fin 4), l50⟩ c' (pos ⟨win0_5.index t (2 : Fin 4), l52⟩ r') w') := by
      funext c' r' w'
      show V m c main_arg0 (((cfg0.win 0).blk t).view.emb (ix4 u0 c' r' w')) = _
      rw [V_main_arg0]
      refine congrArg _ (funext fun a => Fin.ext ?_)
      match a with
      | ⟨0, _⟩ => show win0_0.index t (0 : Fin 4) * 1 + 1 * 0 = win0_5.index t (0 : Fin 4); omega
      | ⟨1, _⟩ => show win0_0.index t (1 : Fin 4) * 256 + 1 * c'.val = c'.val; omega
      | ⟨2, _⟩ => show win0_0.index t (2 : Fin 4) * 8 + 1 * r'.val = win0_5.index t (2 : Fin 4) * 8 + r'.val; omega
      | ⟨3, _⟩ => show win0_0.index t (3 : Fin 4) * 256 + 1 * w'.val = w'.val; omega
    have h1 : (fun c' => iblk m c 1 t (ix1 c')) = fun c' => m ((c : Thread nD τ).loc main_arg1) (ix1 c') := by
      funext c'
      show V m c main_arg1 (((cfg0.win 1).blk t).view.emb (ix1 c')) = _
      rw [V_main_arg1]
      refine congrArg _ (funext fun a => Fin.ext ?_)
      match a with
      | ⟨0, _⟩ => show win0_1.index t (0 : Fin 1) * 256 + 1 * c'.val = c'.val; omega
    have h2 : (fun c' => iblk m c 2 t (ix1 c')) = fun c' => m ((c : Thread nD τ).loc main_arg2) (ix1 c') := by
      funext c'
      show V m c main_arg2 (((cfg0.win 2).blk t).view.emb (ix1 c')) = _
      rw [V_main_arg2]
      refine congrArg _ (funext fun a => Fin.ext ?_)
      match a with
      | ⟨0, _⟩ => show win0_2.index t (0 : Fin 1) * 256 + 1 * c'.val = c'.val; omega
    have h3 : (fun f' c' => iblk m c 3 t (ix2 c' f')) = fun f' c' => m ((c : Thread nD τ).loc main_arg3) (ix2 f' c') := by
      funext f' c'
      show (V m c main_v1 : S256x768.Idx → EReal) (((cfg0.win 3).blk t).view.emb (ix2 c' f')) = _
      rw [V_wqkv]
      refine transpose_apply [1, 0] _ transposes_S768x256_S256x768_1_0 _ (ix2 f' c') fun b => ?_
      match b with
      | ⟨0, _⟩ => show c'.val = win0_3.index t (0 : Fin 2) * 256 + 1 * c'.val; omega
      | ⟨1, _⟩ => show f'.val = win0_3.index t (1 : Fin 2) * 768 + 1 * f'.val; omega
    have h4 : (fun f' c' => iblk m c 4 t (ix2 c' f')) = fun f' c' => m ((c : Thread nD τ).loc main_arg4) (ix2 f' c') := by
      funext f' c'
      show (V m c main_v3 : S256x256.Idx → EReal) (((cfg0.win 4).blk t).view.emb (ix2 c' f')) = _
      rw [V_wout]
      refine transpose_apply [1, 0] _ transposes_S256x256_S256x256_1_0 _ (ix2 f' c') fun b => ?_
      match b with
      | ⟨0, _⟩ => show c'.val = win0_4.index t (0 : Fin 2) * 256 + 1 * c'.val; omega
      | ⟨1, _⟩ => show f'.val = win0_4.index t (1 : Fin 2) * 256 + 1 * f'.val; omega
    rw [h0, h1, h2, h3, h4]
  · show win0_5.index t (0 : Fin 4) * 1 + 1 * 0 = win0_5.index t (0 : Fin 4); omega
  · show win0_5.index t (1 : Fin 4) * 256 + 1 * f.val = f.val; omega
  · show win0_5.index t (2 : Fin 4) * 8 + 1 * r.val = win0_5.index t (2 : Fin 4) * 8 + r.val; omega
  · show win0_5.index t (3 : Fin 4) * 256 + 1 * w.val = w.val; omega

/-- What point `t` writes back is band `t` of the whole-image function. -/
theorem flushed_eq (c : Dev nD) (t : Fin cfg0.N) :
    (dats m 0 c).flushed 5 t = ((cfg0.win 5).blk t).view.read (Elt Ideal) (resultOf m c) := by
  rw [Value.flushed5]
  unfold out0_5
  rw [View.canon_unit_zero hz4]
  simp only [View.ld_unit_zero (S := S1x256x8x256) hz4, View.ld_unit_zero (S := S256) hz1, View.ld_unit_zero (S := S256x768) hz2,
    View.ld_unit_zero (S := S256x256) hz2]
  funext j
  show k0_pay1 (F := Ideal) (k0_pay2 (iblk m c 0 t)) (k0_pay4 (iblk m c 0 t) (iblk m c 1 t) (iblk m c 2 t) (iblk m c 3 t))
      (k0_pay5 (iblk m c 0 t) (iblk m c 1 t) (iblk m c 2 t) (iblk m c 3 t))
      (k0_pay6 (iblk m c 0 t) (iblk m c 1 t) (iblk m c 2 t) (iblk m c 3 t)) (iblk m c 4 t) j
    = resultOf m c (((cfg0.win 5).blk t).view.emb j)
  exact band_eq m c t j

/-- An index of the array is in point `t`'s band iff each coordinate is in the band's range on its axis. -/
theorem mem_blk (t : Fin cfg0.N) (i : S4x256x256x256.Idx) :
    i ∈ ((cfg0.win 5).blk t).view.set ↔ ∀ a : Fin 4, win0_5.index t a * S1x256x8x256.size a ≤ (i a).val
      ∧ (i a).val < win0_5.index t a * S1x256x8x256.size a + S1x256x8x256.size a := by
  show i ∈ ((View.whole main_v4).slice (win0_5.rect t)).set ↔ _
  rw [View.set_slice_whole, Rect.mem_set_unit]
  exact Iff.rfl

/-- The bands tile the array: index (b, f, h, w) lies in the band of the point for image `b`, band `h / 8`. -/
theorem cover (i : S4x256x256x256.Idx) :
    ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 256 := (i 2).isLt
  have hi3 : (i 3).val < 256 := (i 3).isLt
  obtain ⟨t, ht⟩ := idx_onto ⟨(i 0).val, hi0⟩ ⟨(i 2).val / 8, by omega⟩
  have q0 : win0_5.index t (0 : Fin 4) = (i 0).val := congrFun ht 0
  have q1 : win0_5.index t (1 : Fin 4) = 0 := congrFun ht 1
  have q2 : win0_5.index t (2 : Fin 4) = (i 2).val / 8 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 8 ≤ (i 2).val ∧ (i 2).val < win0_5.index t (2 : Fin 4) * 8 + 8; omega
  | ⟨3, _⟩ => show win0_5.index t (3 : Fin 4) * 256 ≤ (i 3).val ∧ (i 3).val < win0_5.index t (3 : Fin 4) * 256 + 256; omega

/-- The result array after the run is the whole-image function of the arguments as launched. -/
theorem final (c : Dev nD) : (dats m 0 c).arrAt 5 cfg0.N = resultOf m c :=
  (dats m 0 c).arrAt_eq_of_cover 5 (resultOf m c) (fun t _ => flushed_eq m c t) cover

/-- The kernel's run, read: every weakly fair execution terminates with the result array at the whole-image function
    of the arguments and the arguments unchanged. -/
theorem run : θ_run defs (onTc (τ := τ) (main (F := Ideal))) ⟨m, fun _ => 0, ρ⟩ fun r => ∀ c : Dev nD,
      r.2.mem ((c : Thread nD τ).loc main_v4) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.LocalAttn.Kernel

end
-- ==== Proof.LibIdxRank7.lean ====
/-
  Rank-7 indices by coordinates: `ix7` builds a rank-7 index of literal extents from its seven coordinates, every
  rank-7 index is of that form, and its row-major position is one sum of products (the form linear arithmetic can
  use) — rank 7 of the library's `ix1` ... `ix6` and `Shape.rowMajor_val_one` ... `rowMajor_val_six`.
-/
import Idealize.ShloMosaic.Lib.ValueIdxCoords

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with
    | ⟨0, _⟩ => a | ⟨1, _⟩ => b | ⟨2, _⟩ => c | ⟨3, _⟩ => d | ⟨4, _⟩ => e | ⟨5, _⟩ => f | ⟨6, _⟩ => g

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end ValueIdx

end Idealize.ShloMosaic
-- ==== Proof.ReferenceNormProject.lean ====
/-
  The reference's normalisation and projection read at an index: entry (b, h, w, f) of the [4, 256, 256, 768] product
  is projected channel `f` of the pixel at row `h`, column `w` of image `b`.
-/
import proofs.«100162_j21328807592345_2_alg».proof.Proof.Gen.ReferenceIdeal.Read
import proofs.«100162_j21328807592345_2_alg».proof.Proof.WindowAttention
import proofs.«100162_j21328807592345_2_alg».proof.Proof.LibIdxRank7
import Idealize.ShloMosaic.Lib.Pipeline.Value
import Idealize.ShloMosaic.Lib.ValueIdxCoords
import Idealize.ShloMosaic.PureOps.Ideal.Laws

noncomputable section

namespace Cert.LocalAttn.Reference

open Cert.ReferenceIdeal Cert.ReferenceIdeal.Gen Cert.ReferenceIdeal.Read Idealize.ShloMosaic Idealize.ShloMosaic.ValueIdx
open Cert.LocalAttn

variable (X0 : (⟨S4x256x256x256, .f32⟩ : BufTy).Contents (Elt Ideal)) (X1 X2 : (⟨S256, .f32⟩ : BufTy).Contents (Elt Ideal))
  (X3 : (⟨S768x256, .f32⟩ : BufTy).Contents (Elt Ideal)) (X4 : (⟨S256x256, .f32⟩ : BufTy).Contents (Elt Ideal))

/-! ## The channels-last view of the input -/

/-- The transposed input at (b, h, w, c) is channel `c` of the pixel at row `h`, column `w` of image `b`. -/
theorem v0_apply (b : Fin 4) (h w c : Fin 256) :
    val_main_v0 (F := Ideal) X0 (ix4 b h w c) = X0 (ix4 b c h w) := by
  rw [val_main_v0_apply]
  exact congrArg X0 (funext fun a => by
    match a with | ⟨0, _⟩ => rfl | ⟨1, _⟩ => rfl | ⟨2, _⟩ => rfl | ⟨3, _⟩ => rfl)

/-! ## The mean over the channels -/

/-- The sum of a pixel's channels (the sum starts from zero). -/
theorem v1_apply (b : Fin 4) (h w : Fin 256) :
    val_main_v1 (F := Ideal) X0 (ix3 b h w) = ∑ c : Fin 256, X0 (ix4 b c h w) := by
  rw [val_main_v1_apply, val_main_cst_apply, Ideal.ofBits_def, Ideal.ofBits_zero_f32, zero_add]
  refine Finset.sum_congr rfl fun k _ => ?_
  have e : idx_main_v1 (ix3 b h w) k = ix4 b h w k := funext fun a => by
    match a with | ⟨0, _⟩ => rfl | ⟨1, _⟩ => rfl | ⟨2, _⟩ => rfl | ⟨3, _⟩ => rfl
  rw [e, v0_apply]

/-- The pixel's mean: the channel sum divided by 256. -/
theorem v4_apply (b : Fin 4) (h w : Fin 256) :
    val_main_v4 (F := Ideal) X0 (ix4 b h w u0) = mean (fun c => X0 (ix4 b c h w)) := by
  have e : idx_main_v2 (ix4 b h w u0) = ix3 b h w := funext fun a => by
    match a with | ⟨0, _⟩ => rfl | ⟨1, _⟩ => rfl | ⟨2, _⟩ => rfl
  rw [val_main_v4_apply, val_main_v2_apply, val_main_v3_apply, val_main_cst_0_apply, Ideal.hostDivf_def,
    Ideal.ofBits_def, e, v1_apply]
  rfl

/-- A channel's deviation from the pixel's mean (the first of the two subtractions the program makes). -/
theorem v6_apply (b : Fin 4) (h w c : Fin 256) :
    val_main_v6 (F := Ideal) X0 (ix4 b h w c)
      = X0 (ix4 b c h w) - mean (fun c => X0 (ix4 b c h w)) := by
  have e : idx_main_v5 (ix4 b h w c) = ix4 b h w u0 := funext fun a => by
    match a with | ⟨0, _⟩ => rfl | ⟨1, _⟩ => rfl | ⟨2, _⟩ => rfl | ⟨3, _⟩ => rfl
  rw [val_main_v6_apply, val_main_v5_apply, Ideal.subf_def, e, v0_apply, v4_apply]

/-- The same deviation, as the program computes it a second time for the normalised value. -/
theorem v13_apply (b : Fin 4) (h w c : Fin 256) :
    val_main_v13 (F := Ideal) X0 (ix4 b h w c)
      = X0 (ix4 b c h w) - mean (fun c => X0 (ix4 b c h w)) := by
  have e : idx_main_v12 (ix4 b h w c) = ix4 b h w u0 := funext fun a => by
    match a with | ⟨0, _⟩ => rfl | ⟨1, _⟩ => rfl | ⟨2, _⟩ => rfl | ⟨3, _⟩ => rfl
  rw [val_main_v13_apply, val_main_v12_apply, Ideal.subf_def, e, v0_apply, v4_apply]

/-! ## The reciprocal standard deviation -/

/-- The sum of the squared deviations of a pixel's channels (the sum starts from zero). -/
theorem v8_apply (b : Fin 4) (h w : Fin 256) :
    val_main_v8 (F := Ideal) X0 (ix3 b h w)
      = ∑ c : Fin 256, (X0 (ix4 b c h w) - mean (fun c => X0 (ix4 b c h w)))
          * (X0 (ix4 b c h w) - mean (fun c => X0 (ix4 b c h w))) := by
  rw [val_main_v8_apply, val_main_cst_1_apply, Ideal.ofBits_def, Ideal.ofBits_zero_f32, zero_add]
  refine Finset.sum_congr rfl fun k _ => ?_
  have e : idx_main_v8 (ix3 b h w) k = ix4 b h w k := funext fun a => by
    match a with | ⟨0, _⟩ => rfl | ⟨1, _⟩ => rfl | ⟨2, _⟩ => rfl | ⟨3, _⟩ => rfl
  rw [e, val_main_v7_apply, Ideal.mulf_def, v6_apply]

/-- The pixel's reciprocal standard deviation: `rsqrt` of the mean squared deviation plus epsilon. -/
theorem v16_apply (b : Fin 4) (h w : Fin 256) :
    val_main_v16 (F := Ideal) X0 (ix4 b h w u0) = rstd (fun c => X0 (ix4 b c h w)) := by
  have e : idx_main_v9 (ix4 b h w u0) = ix3 b h w := funext fun a => by
    match a with | ⟨0, _⟩ => rfl | ⟨1, _⟩ => rfl | ⟨2, _⟩ => rfl
  rw [val_main_v16_apply, val_main_v15_apply, val_main_v11_apply, val_main_v9_apply, val_main_v10_apply,
    val_main_v14_apply, val_main_cst_2_apply, val_main_cst_3_apply, Ideal.hostUnary_rsqrt_def, Ideal.addf_def,
    Ideal.hostDivf_def, Ideal.ofBits_def, Ideal.ofBits_def, e, v8_apply]
  rfl

/-! ## The normalised channels -/

/-- The scale, broadcast over the pixels, at (b, h, w, c) is its entry `c`. -/
theorem v20_apply (b : Fin 4) (h w c : Fin 256) :
    val_main_v20 (F := Ideal) X1 (ix4 b h w c) = X1 (ix1 c) := by
  have e : idx_main_v19 (idx_main_v20 (ix4 b h w c)) = ix1 c := funext fun a => by
    match a with | ⟨0, _⟩ => rfl
  rw [val_main_v20_apply, val_main_v19_apply, e]

/-- The shift, broadcast over the pixels, at (b, h, w, c) is its entry `c`. -/
theorem v23_apply (b : Fin 4) (h w c : Fin 256) :
    val_main_v23 (F := Ideal) X2 (ix4 b h w c) = X2 (ix1 c) := by
  have e : idx_main_v22 (idx_main_v23 (ix4 b h w c)) = ix1 c := funext fun a => by
    match a with | ⟨0, _⟩ => rfl
  rw [val_main_v23_apply, val_main_v22_apply, e]

/-- The normalised, scaled and shifted channel `c` of a pixel. -/
theorem v24_apply (b : Fin 4) (h w c : Fin 256) :
    val_main_v24 (F := Ideal) X0 X1 X2 (ix4 b h w c)
      = lnRow (fun c => X0 (ix4 b c h w)) (fun c => X1 (ix1 c)) (fun c => X2 (ix1 c)) c := by
  have e : idx_main_v17 (ix4 b h w c) = ix4 b h w u0 := funext fun a => by
    match a with | ⟨0, _⟩ => rfl | ⟨1, _⟩ => rfl | ⟨2, _⟩ => rfl | ⟨3, _⟩ => rfl
  rw [val_main_v24_apply, val_main_v21_apply, val_main_v18_apply, val_main_v17_apply, Ideal.addf_def,
    Ideal.mulf_def, Ideal.mulf_def, e, v13_apply, v16_apply, v20_apply, v23_apply]
  rfl

/-! ## The projection -/

/-- The projected channels of a pixel. -/
theorem v25_apply (b : Fin 4) (h w : Fin 256) (f : Fin 768) :
    val_main_v25 (F := Ideal) X0 X1 X2 X3 (ix4 b h w f)
      = qkvRow (fun c => X0 (ix4 b c h w)) (fun c => X1 (ix1 c)) (fun c => X2 (ix1 c)) (fun f c => X3 (ix2 f c)) f := by
  rw [val_main_v25_apply]
  unfold qkvRow
  refine Finset.sum_congr rfl fun k _ => ?_
  have el : lidx_main_v25 (ix4 b h w f) k = ix4 b h w k := funext fun a => by
    match a with | ⟨0, _⟩ => rfl | ⟨1, _⟩ => rfl | ⟨2, _⟩ => rfl | ⟨3, _⟩ => rfl
  have er : ridx_main_v25 (ix4 b h w f) k = ix2 f k := funext fun a => by
    match a with | ⟨0, _⟩ => rfl | ⟨1, _⟩ => rfl
  rw [el, er, v24_apply]

end Cert.LocalAttn.Reference

end
-- ==== Proof.ReferenceWindows.lean ====
/-
  The reference's queries, keys and values per window and head, read at an index: a channel slice of the
  [4, 256, 256, 768] projection, viewed [4, 32, 8, 32, 8, 4, 64] (image, window row, row in the window, window column,
  column in the window, head, coordinate), transposed to [4, 32, 32, 4, 8, 8, 64] and flattened to [4, 32, 32, 4, 64, 64].
-/
import proofs.«100162_j21328807592345_2_alg».proof.Proof.Gen.ReferenceIdeal.Read
import proofs.«100162_j21328807592345_2_alg».proof.Proof.WindowAttention
import proofs.«100162_j21328807592345_2_alg».proof.Proof.LibIdxRank7
import Idealize.ShloMosaic.Lib.Pipeline.Value
import Idealize.ShloMosaic.Lib.ValueIdxCoords
import Idealize.ShloMosaic.PureOps.Ideal.Laws

noncomputable section

namespace Cert.LocalAttn.Reference

open Cert.ReferenceIdeal Cert.ReferenceIdeal.Gen Cert.ReferenceIdeal.Read Idealize.ShloMosaic Idealize.ShloMosaic.ValueIdx
open Cert.LocalAttn

section Layout
variable {α : Type}

/-- The flattening [4, 32, 32, 4, 8, 8, 64] → [4, 32, 32, 4, 64, 64]: token `q` is row `q / 8`, column `q % 8` of its window. -/
theorem flatten_apply (x : S4x32x32x4x8x8x64.Idx → α) (h : S4x32x32x4x8x8x64.ShapeCasts S4x32x32x4x64x64)
    (b : Fin 4) (n mw : Fin 32) (hd : Fin 4) (q d : Fin 64) :
    shapeCast S4x32x32x4x64x64 x h (ix6 b n mw hd q d) = x (ix7 b n mw hd (tokRow q) (tokCol q) d) :=
  shapeCast_apply x h _ _ (by
    rw [Shape.rowMajor_val_seven, Shape.rowMajor_val_six]
    show (((((b.val * 32 + n.val) * 32 + mw.val) * 4 + hd.val) * 8 + q.val / 8) * 8 + q.val % 8) * 64 + d.val
      = ((((b.val * 32 + n.val) * 32 + mw.val) * 4 + hd.val) * 64 + q.val) * 64 + d.val
    omega)

/-- The transpose by [0, 1, 3, 5, 2, 4, 6]: (image, window row, window column, head, row, column, coordinate) reads
    (image, window row, row, window column, column, head, coordinate). -/
theorem permute_apply (x : S4x32x8x32x8x4x64.Idx → α)
    (h : S4x32x8x32x8x4x64.Transposes [0, 1, 3, 5, 2, 4, 6] S4x32x32x4x8x8x64)
    (b : Fin 4) (n mw : Fin 32) (hd : Fin 4) (r s : Fin 8) (d : Fin 64) :
    transpose S4x32x32x4x8x8x64 [0, 1, 3, 5, 2, 4, 6] x h (ix7 b n mw hd r s d) = x (ix7 b n r mw s hd d) :=
  transpose_apply _ x h _ _ fun c => match c with
    | ⟨0, _⟩ => rfl | ⟨1, _⟩ => rfl | ⟨2, _⟩ => rfl | ⟨3, _⟩ => rfl | ⟨4, _⟩ => rfl | ⟨5, _⟩ => rfl | ⟨6, _⟩ => rfl

/-- The view [4, 256, 256, 256] → [4, 32, 8, 32, 8, 4, 64]: row `8 n + r`, column `8 mw + s`, channel `64 hd + d`. -/
theorem split_apply (x : S4x256x256x256.Idx → α) (h : S4x256x256x256.ShapeCasts S4x32x8x32x8x4x64)
    (b : Fin 4) (n : Fin 32) (r : Fin 8) (mw : Fin 32) (s : Fin 8) (hd : Fin 4) (d : Fin 64) :
    shapeCast S4x32x8x32x8x4x64 x h (ix7 b n r mw s hd d) = x (ix4 b (pos n r) (pos mw s) (chanO hd d)) :=
  shapeCast_apply x h _ _ (by
    rw [Shape.rowMajor_val_four, Shape.rowMajor_val_seven]
    show ((b.val * 256 + (n.val * 8 + r.val)) * 256 + (mw.val * 8 + s.val)) * 256 + (hd.val * 64 + d.val)
      = (((((b.val * 32 + n.val) * 8 + r.val) * 32 + mw.val) * 8 + s.val) * 4 + hd.val) * 64 + d.val
    omega)

/-- The three layout steps together. -/
theorem windows_apply (z : S4x256x256x256.Idx → α) (h1 : S4x256x256x256.ShapeCasts S4x32x8x32x8x4x64)
    (h2 : S4x32x8x32x8x4x64.Transposes [0, 1, 3, 5, 2, 4, 6] S4x32x32x4x8x8x64)
    (h3 : S4x32x32x4x8x8x64.ShapeCasts S4x32x32x4x64x64)
    (b : Fin 4) (n mw : Fin 32) (hd : Fin 4) (q d : Fin 64) :
    shapeCast S4x32x32x4x64x64 (transpose S4x32x32x4x8x8x64 [0, 1, 3, 5, 2, 4, 6] (shapeCast S4x32x8x32x8x4x64 z h1) h2) h3
        (ix6 b n mw hd q d)
      = z (ix4 b (pos n (tokRow q)) (pos mw (tokCol q)) (chanO hd d)) :=
  (flatten_apply _ h3 b n mw hd q d).trans
    ((permute_apply _ h2 b n mw hd (tokRow q) (tokCol q) d).trans (split_apply z h1 b n (tokRow q) mw (tokCol q) hd d))

end Layout

variable (X0 : (⟨S4x256x256x256, .f32⟩ : BufTy).Contents (Elt Ideal)) (X1 X2 : (⟨S256, .f32⟩ : BufTy).Contents (Elt Ideal))
  (X3 : (⟨S768x256, .f32⟩ : BufTy).Contents (Elt Ideal)) (X4 : (⟨S256x256, .f32⟩ : BufTy).Contents (Elt Ideal))

/-- The queries of window (`n`, `mw`), head `hd`: token `q`, coordinate `d` is projected channel `0 + 64 hd + d` of the
    pixel at row `8 n + q / 8`, column `8 mw + q % 8`. -/
theorem v31_apply (b : Fin 4) (n mw : Fin 32) (hd : Fin 4) (q d : Fin 64) :
    val_main_v31 (F := Ideal) X0 X1 X2 X3 (ix6 b n mw hd q d)
      = val_main_v25 (F := Ideal) X0 X1 X2 X3 (ix4 b (pos n (tokRow q)) (pos mw (tokCol q)) (chan 0 (by omega) hd d)) := by
  unfold val_main_v31 val_main_v30 val_main_v29
  refine (windows_apply _ _ _ _ b n mw hd q d).trans ?_
  refine (val_main_v26_apply (F := Ideal) X0 X1 X2 X3 _).trans (congrArg _ (funext fun a => ?_))
  match a with
  | ⟨0, _⟩ => rfl
  | ⟨1, _⟩ => rfl
  | ⟨2, _⟩ => rfl
  | ⟨3, _⟩ => exact Fin.ext (by show hd.val * 64 + d.val = 0 + (hd.val * 64 + d.val); omega)

/-- The keys of window (`n`, `mw`), head `hd`: token `q`, coordinate `d` is projected channel `256 + 64 hd + d` of the
    pixel at row `8 n + q / 8`, column `8 mw + q % 8`. -/
theorem v34_apply (b : Fin 4) (n mw : Fin 32) (hd : Fin 4) (q d : Fin 64) :
    val_main_v34 (F := Ideal) X0 X1 X2 X3 (ix6 b n mw hd q d)
      = val_main_v25 (F := Ideal) X0 X1 X2 X3 (ix4 b (pos n (tokRow q)) (pos mw (tokCol q)) (chan 256 (by omega) hd d)) := by
  unfold val_main_v34 val_main_v33 val_main_v32
  refine (windows_apply _ _ _ _ b n mw hd q d).trans ?_
  refine (val_main_v27_apply (F := Ideal) X0 X1 X2 X3 _).trans (congrArg _ (funext fun a => ?_))
  match a with
  | ⟨0, _⟩ => rfl
  | ⟨1, _⟩ => rfl
  | ⟨2, _⟩ => rfl
  | ⟨3, _⟩ => rfl

/-- The values of window (`n`, `mw`), head `hd`: token `q`, coordinate `d` is projected channel `512 + 64 hd + d` of the
    pixel at row `8 n + q / 8`, column `8 mw + q % 8`. -/
theorem v37_apply (b : Fin 4) (n mw : Fin 32) (hd : Fin 4) (q d : Fin 64) :
    val_main_v37 (F := Ideal) X0 X1 X2 X3 (ix6 b n mw hd q d)
      = val_main_v25 (F := Ideal) X0 X1 X2 X3 (ix4 b (pos n (tokRow q)) (pos mw (tokCol q)) (chan 512 (by omega) hd d)) := by
  unfold val_main_v37 val_main_v36 val_main_v35
  refine (windows_apply _ _ _ _ b n mw hd q d).trans ?_
  refine (val_main_v28_apply (F := Ideal) X0 X1 X2 X3 _).trans (congrArg _ (funext fun a => ?_))
  match a with
  | ⟨0, _⟩ => rfl
  | ⟨1, _⟩ => rfl
  | ⟨2, _⟩ => rfl
  | ⟨3, _⟩ => rfl

end Cert.LocalAttn.Reference

end
-- ==== Proof.ReferenceHeads.lean ====
/-
  The reference's attention heads read at an index: entry (b, n, mw, hd, q, d) is the attention function of that
  window's and head's queries, keys and values.
-/
import proofs.«100162_j21328807592345_2_alg».proof.Proof.Gen.ReferenceIdeal.Read
import proofs.«100162_j21328807592345_2_alg».proof.Proof.WindowAttention
import proofs.«100162_j21328807592345_2_alg».proof.Proof.LibIdxRank7
import Idealize.ShloMosaic.Lib.Pipeline.Value
import Idealize.ShloMosaic.Lib.ValueIdxCoords
import Idealize.ShloMosaic.PureOps.Ideal.Laws

noncomputable section

namespace Cert.LocalAttn.Reference

open Cert.ReferenceIdeal Cert.ReferenceIdeal.Gen Cert.ReferenceIdeal.Read Idealize.ShloMosaic Idealize.ShloMosaic.ValueIdx
open Cert.LocalAttn

variable (X0 : (⟨S4x256x256x256, .f32⟩ : BufTy).Contents (Elt Ideal)) (X1 X2 : (⟨S256, .f32⟩ : BufTy).Contents (Elt Ideal))
  (X3 : (⟨S768x256, .f32⟩ : BufTy).Contents (Elt Ideal)) (X4 : (⟨S256x256, .f32⟩ : BufTy).Contents (Elt Ideal))

/-- The queries of window `(b, n, mw)`, head `hd`: token by coordinate. -/
abbrev Qw (b : Fin 4) (n mw : Fin 32) (hd : Fin 4) : Fin 64 → Fin 64 → EReal :=
  fun q d => val_main_v31 (F := Ideal) X0 X1 X2 X3 (ix6 b n mw hd q d)
/-- Its keys. -/
abbrev Kw (b : Fin 4) (n mw : Fin 32) (hd : Fin 4) : Fin 64 → Fin 64 → EReal :=
  fun q d => val_main_v34 (F := Ideal) X0 X1 X2 X3 (ix6 b n mw hd q d)
/-- Its values. -/
abbrev Vw (b : Fin 4) (n mw : Fin 32) (hd : Fin 4) : Fin 64 → Fin 64 → EReal :=
  fun q d => val_main_v37 (F := Ideal) X0 X1 X2 X3 (ix6 b n mw hd q d)

/-- The scaled query-key products: entry `(q, k)` of a window's and head's block is the score of `q` against `k`. -/
theorem v40_apply (b : Fin 4) (n mw : Fin 32) (hd : Fin 4) (q k : Fin 64) :
    val_main_v40 (F := Ideal) X0 X1 X2 X3 (ix6 b n mw hd q k)
      = score (Qw X0 X1 X2 X3 b n mw hd) (Kw X0 X1 X2 X3 b n mw hd) q k := by
  rw [val_main_v40_apply, val_main_v38_apply, val_main_v39_apply, val_main_cst_4_apply]
  unfold score
  show (∑ d : Fin 64, _) * Ideal.ofBits .f32 0x3E000000#32 = _
  refine congrArg (· * Ideal.ofBits .f32 0x3E000000#32) (Finset.sum_congr rfl fun d _ => ?_)
  have el : lidx_main_v38 (ix6 b n mw hd q k) d = ix6 b n mw hd q d := funext fun a => Fin.ext (by
    match a with
    | ⟨0, _⟩ => rfl | ⟨1, _⟩ => rfl | ⟨2, _⟩ => rfl | ⟨3, _⟩ => rfl | ⟨4, _⟩ => rfl | ⟨5, _⟩ => rfl)
  have er : ridx_main_v38 (ix6 b n mw hd q k) d = ix6 b n mw hd k d := funext fun a => Fin.ext (by
    match a with
    | ⟨0, _⟩ => rfl | ⟨1, _⟩ => rfl | ⟨2, _⟩ => rfl | ⟨3, _⟩ => rfl | ⟨4, _⟩ => rfl | ⟨5, _⟩ => rfl)
  rw [el, er]

/-- The last axis of the score tensor is the one folded away. -/
theorem reduces_d5 : S4x32x32x4x64x64.Reduces [5] S4x32x32x4x64 := by decide

/-- The source index over `(b, n, mw, hd, q)` with `k` on the folded axis. -/
theorem lift_d5 (b : Fin 4) (n mw : Fin 32) (hd : Fin 4) (q k : Fin 64) :
    reduces_d5.lift (ix5 b n mw hd q) k = ix6 b n mw hd q k := funext fun a => Fin.ext (by
  match a with
  | ⟨0, _⟩ => rfl | ⟨1, _⟩ => rfl | ⟨2, _⟩ => rfl | ⟨3, _⟩ => rfl | ⟨4, _⟩ => rfl | ⟨5, _⟩ => rfl)

/-- The fold of `max` over the keys, from minus infinity. -/
theorem v41_apply (b : Fin 4) (n mw : Fin 32) (hd : Fin 4) (q : Fin 64) :
    val_main_v41 (F := Ideal) X0 X1 X2 X3 (ix5 b n mw hd q)
      = (Finset.univ : Finset (Fin 64)).fold max (Ideal.ofBits .f32 0xFF800000#32)
          (fun k => score (Qw X0 X1 X2 X3 b n mw hd) (Kw X0 X1 X2 X3 b n mw hd) q k) := by
  unfold val_main_v41
  refine (Host.reduce_eq_fold_single FloatOps.maximumf _ _ reducesTo_S4x32x32x4x64x64_S4x32x32x4x64_d5 reduces_d5 h_S_
    (ix5 b n mw hd q)).trans ?_
  have hf : (val_main_v40 (F := Ideal) X0 X1 X2 X3 ∘ reduces_d5.lift (ix5 b n mw hd q))
      = fun k : Fin 64 => score (Qw X0 X1 X2 X3 b n mw hd) (Kw X0 X1 X2 X3 b n mw hd) q k := funext fun (k : Fin 64) => by
    show val_main_v40 (F := Ideal) X0 X1 X2 X3 (reduces_d5.lift (ix5 b n mw hd q) k) = _
    rw [lift_d5, v40_apply]
  rw [hf]
  rfl

/-- Once more against minus infinity: the row's largest score. -/
theorem v43_apply (b : Fin 4) (n mw : Fin 32) (hd : Fin 4) (q : Fin 64) :
    val_main_v43 (F := Ideal) X0 X1 X2 X3 (ix5 b n mw hd q) = rowMax (Qw X0 X1 X2 X3 b n mw hd) (Kw X0 X1 X2 X3 b n mw hd) q := by
  rw [val_main_v43_apply, val_main_v42_apply, val_main_cst_6_apply, v41_apply]
  rfl

/-- The row's largest score, repeated along the keys. -/
theorem v45_apply (b : Fin 4) (n mw : Fin 32) (hd : Fin 4) (q k : Fin 64) :
    val_main_v45 (F := Ideal) X0 X1 X2 X3 (ix6 b n mw hd q k) = rowMax (Qw X0 X1 X2 X3 b n mw hd) (Kw X0 X1 X2 X3 b n mw hd) q := by
  rw [val_main_v45_apply, val_main_v44_apply]
  have e : idx_main_v44 (idx_main_v45 (ix6 b n mw hd q k)) = ix5 b n mw hd q := funext fun a => Fin.ext (by
    match a with
    | ⟨0, _⟩ => rfl | ⟨1, _⟩ => rfl | ⟨2, _⟩ => rfl | ⟨3, _⟩ => rfl | ⟨4, _⟩ => rfl)
  rw [e, v43_apply]

/-- The exponential of a score below its row's maximum. -/
theorem v47_apply (b : Fin 4) (n mw : Fin 32) (hd : Fin 4) (q k : Fin 64) :
    val_main_v47 (F := Ideal) X0 X1 X2 X3 (ix6 b n mw hd q k) = expo (Qw X0 X1 X2 X3 b n mw hd) (Kw X0 X1 X2 X3 b n mw hd) q k := by
  rw [val_main_v47_apply, val_main_v46_apply, v40_apply, v45_apply]
  rfl

/-- The row's sum of exponentials (the sum starts from zero). -/
theorem v48_apply (b : Fin 4) (n mw : Fin 32) (hd : Fin 4) (q : Fin 64) :
    val_main_v48 (F := Ideal) X0 X1 X2 X3 (ix5 b n mw hd q) = ∑ k : Fin 64, expo (Qw X0 X1 X2 X3 b n mw hd) (Kw X0 X1 X2 X3 b n mw hd) q k := by
  rw [val_main_v48_apply, val_main_cst_7_apply]
  show Ideal.ofBits .f32 0x00000000#32 + _ = _
  rw [Ideal.ofBits_zero_f32, zero_add]
  refine Finset.sum_congr rfl fun k _ => ?_
  have e : idx_main_v48 (ix5 b n mw hd q) k = ix6 b n mw hd q k := funext fun a => Fin.ext (by
    match a with
    | ⟨0, _⟩ => rfl | ⟨1, _⟩ => rfl | ⟨2, _⟩ => rfl | ⟨3, _⟩ => rfl | ⟨4, _⟩ => rfl | ⟨5, _⟩ => rfl)
  rw [e, v47_apply]

/-- The row's sum of exponentials, repeated along the keys. -/
theorem v50_apply (b : Fin 4) (n mw : Fin 32) (hd : Fin 4) (q k : Fin 64) :
    val_main_v50 (F := Ideal) X0 X1 X2 X3 (ix6 b n mw hd q k) = ∑ k' : Fin 64, expo (Qw X0 X1 X2 X3 b n mw hd) (Kw X0 X1 X2 X3 b n mw hd) q k' := by
  rw [val_main_v50_apply, val_main_v49_apply]
  have e : idx_main_v49 (idx_main_v50 (ix6 b n mw hd q k)) = ix5 b n mw hd q := funext fun a => Fin.ext (by
    match a with
    | ⟨0, _⟩ => rfl | ⟨1, _⟩ => rfl | ⟨2, _⟩ => rfl | ⟨3, _⟩ => rfl | ⟨4, _⟩ => rfl)
  rw [e, v48_apply]

/-- The softmax weight of key `k` for query `q`. -/
theorem v51_apply (b : Fin 4) (n mw : Fin 32) (hd : Fin 4) (q k : Fin 64) :
    val_main_v51 (F := Ideal) X0 X1 X2 X3 (ix6 b n mw hd q k) = weight (Qw X0 X1 X2 X3 b n mw hd) (Kw X0 X1 X2 X3 b n mw hd) q k := by
  rw [val_main_v51_apply, v47_apply, v50_apply]
  rfl

/-- Scores, softmax and weighted values, window by window and head by head. -/
theorem v52_apply (b : Fin 4) (n mw : Fin 32) (hd : Fin 4) (q d : Fin 64) :
    val_main_v52 (F := Ideal) X0 X1 X2 X3 (ix6 b n mw hd q d)
      = attn (fun q d => val_main_v31 (F := Ideal) X0 X1 X2 X3 (ix6 b n mw hd q d))
          (fun q d => val_main_v34 (F := Ideal) X0 X1 X2 X3 (ix6 b n mw hd q d))
          (fun q d => val_main_v37 (F := Ideal) X0 X1 X2 X3 (ix6 b n mw hd q d)) q d := by
  rw [val_main_v52_apply]
  unfold attn
  refine Finset.sum_congr rfl fun k _ => ?_
  have el : lidx_main_v52 (ix6 b n mw hd q d) k = ix6 b n mw hd q k := funext fun a => Fin.ext (by
    match a with
    | ⟨0, _⟩ => rfl | ⟨1, _⟩ => rfl | ⟨2, _⟩ => rfl | ⟨3, _⟩ => rfl | ⟨4, _⟩ => rfl | ⟨5, _⟩ => rfl)
  have er : ridx_main_v52 (ix6 b n mw hd q d) k = ix6 b n mw hd k d := funext fun a => Fin.ext (by
    match a with
    | ⟨0, _⟩ => rfl | ⟨1, _⟩ => rfl | ⟨2, _⟩ => rfl | ⟨3, _⟩ => rfl | ⟨4, _⟩ => rfl | ⟨5, _⟩ => rfl)
  rw [el, er, v51_apply]

end Cert.LocalAttn.Reference

end
-- ==== Proof.ReferenceMerge.lean ====
/-
  The tail of the reference read at an index: the heads' outputs viewed [4, 32, 32, 4, 8, 8, 64], transposed to
  [4, 32, 8, 32, 8, 4, 64] and flattened back to pixels by channels, projected by the 256 x 256 weights, moved channel-first
  and added to the input.
-/
import proofs.«100162_j21328807592345_2_alg».proof.Proof.Gen.ReferenceIdeal.Read
import proofs.«100162_j21328807592345_2_alg».proof.Proof.WindowAttention
import proofs.«100162_j21328807592345_2_alg».proof.Proof.LibIdxRank7
import Idealize.ShloMosaic.Lib.Pipeline.Value
import Idealize.ShloMosaic.Lib.ValueIdxCoords
import Idealize.ShloMosaic.PureOps.Ideal.Laws

noncomputable section

namespace Cert.LocalAttn.Reference

open Cert.ReferenceIdeal Cert.ReferenceIdeal.Gen Cert.ReferenceIdeal.Read Idealize.ShloMosaic Idealize.ShloMosaic.ValueIdx
open Cert.LocalAttn

variable (X0 : (⟨S4x256x256x256, .f32⟩ : BufTy).Contents (Elt Ideal)) (X1 X2 : (⟨S256, .f32⟩ : BufTy).Contents (Elt Ideal))
  (X3 : (⟨S768x256, .f32⟩ : BufTy).Contents (Elt Ideal)) (X4 : (⟨S256x256, .f32⟩ : BufTy).Contents (Elt Ideal))

/-! ## The three layout operations, over an arbitrary source -/

/-- The token axis of 64 split into 8 rows of 8: row `hh`, column `ww` of a window is its token `8 hh + ww`. -/
theorem splitTok_apply {α : Type} (y : S4x32x32x4x64x64.Idx → α) (b : Fin 4) (n mw : Fin 32) (hd : Fin 4) (hh ww : Fin 8)
    (d : Fin 64) :
    shapeCast S4x32x32x4x8x8x64 y shapeCasts_S4x32x32x4x64x64_S4x32x32x4x8x8x64 (ix7 b n mw hd hh ww d)
      = y (ix6 b n mw hd (tok hh ww) d) := by
  refine shapeCast_apply y _ _ _ ?_
  rw [Shape.rowMajor_val_six, Shape.rowMajor_val_seven]
  show ((((b.val * 32 + n.val) * 32 + mw.val) * 4 + hd.val) * 64 + (hh.val * 8 + ww.val)) * 64 + d.val
    = (((((b.val * 32 + n.val) * 32 + mw.val) * 4 + hd.val) * 8 + hh.val) * 8 + ww.val) * 64 + d.val
  omega

/-- Pixels by channels out of (row group, row place, column group, column place, head, coordinate): row `h` is place
    `h % 8` of group `h / 8`, column `w` likewise, channel `c` is coordinate `c % 64` of head `c / 64`. -/
theorem mergePix_apply {α : Type} (z : S4x32x8x32x8x4x64.Idx → α) (b : Fin 4) (h w c : Fin 256) :
    shapeCast S4x256x256x256 z shapeCasts_S4x32x8x32x8x4x64_S4x256x256x256 (ix4 b h w c)
      = z (ix7 b (grp h) (plc h) (grp w) (plc w) (headOf c) (dimOf c)) := by
  refine shapeCast_apply z _ _ _ ?_
  rw [Shape.rowMajor_val_seven, Shape.rowMajor_val_four]
  have hh := h.isLt
  have hw := w.isLt
  have hc := c.isLt
  show (((((b.val * 32 + h.val / 8) * 8 + h.val % 8) * 32 + w.val / 8) * 8 + w.val % 8) * 4 + c.val / 64) * 64 + c.val % 64
    = ((b.val * 256 + h.val) * 256 + w.val) * 256 + c.val
  omega

/-- The merged heads: attention channel `c` of the pixel at row `h`, column `w` is coordinate `c % 64` of head
    `c / 64` at the pixel's token in its window. -/
theorem v55_apply (b : Fin 4) (h w c : Fin 256) :
    val_main_v55 (F := Ideal) X0 X1 X2 X3 (ix4 b h w c)
      = val_main_v52 (F := Ideal) X0 X1 X2 X3 (ix6 b (grp h) (grp w) (headOf c) (tok (plc h) (plc w)) (dimOf c)) := by
  unfold val_main_v55
  refine (mergePix_apply _ b h w c).trans ?_
  rw [val_main_v54_apply]
  have e : idx_main_v54 (ix7 b (grp h) (plc h) (grp w) (plc w) (headOf c) (dimOf c))
      = ix7 b (grp h) (grp w) (headOf c) (plc h) (plc w) (dimOf c) := funext fun a => Fin.ext (by
    match a with
    | ⟨0, _⟩ => rfl | ⟨1, _⟩ => rfl | ⟨2, _⟩ => rfl | ⟨3, _⟩ => rfl | ⟨4, _⟩ => rfl | ⟨5, _⟩ => rfl | ⟨6, _⟩ => rfl)
  rw [e]
  unfold val_main_v53
  exact splitTok_apply _ b (grp h) (grp w) (headOf c) (plc h) (plc w) (dimOf c)

/-- The output projection: output channel `f` of a pixel is the sum over the attention channels. -/
theorem v56_apply (b : Fin 4) (h w f : Fin 256) :
    val_main_v56 (F := Ideal) X0 X1 X2 X3 X4 (ix4 b h w f)
      = ∑ c : Fin 256, val_main_v55 (F := Ideal) X0 X1 X2 X3 (ix4 b h w c) * X4 (ix2 f c) := by
  rw [val_main_v56_apply]
  refine Finset.sum_congr rfl fun c _ => ?_
  have el : lidx_main_v56 (ix4 b h w f) c = ix4 b h w c := funext fun a => Fin.ext (by
    match a with
    | ⟨0, _⟩ => rfl | ⟨1, _⟩ => rfl | ⟨2, _⟩ => rfl | ⟨3, _⟩ => rfl)
  have er : ridx_main_v56 (ix4 b h w f) c = ix2 f c := funext fun a => Fin.ext (by
    match a with
    | ⟨0, _⟩ => rfl | ⟨1, _⟩ => rfl)
  rw [el, er]

/-- Output channel `f` of the pixel at row `h`, column `w` of image `b`. -/
theorem v58_apply (b : Fin 4) (f : Fin 256) (h w : Fin 256) :
    val_main_v58 (F := Ideal) X0 X1 X2 X3 X4 (ix4 b f h w)
      = (∑ c : Fin 256, val_main_v52 (F := Ideal) X0 X1 X2 X3 (ix6 b (grp h) (grp w) (headOf c) (tok (plc h) (plc w)) (dimOf c))
            * X4 (ix2 f c))
        + X0 (ix4 b f h w) := by
  rw [val_main_v58_apply, Ideal.addf_def, val_main_v57_apply]
  have e : idx_main_v57 (ix4 b f h w) = ix4 b h w f := funext fun a => Fin.ext (by
    match a with
    | ⟨0, _⟩ => rfl | ⟨1, _⟩ => rfl | ⟨2, _⟩ => rfl | ⟨3, _⟩ => rfl)
  rw [e, v56_apply]
  refine congrArg (· + X0 (ix4 b f h w)) (Finset.sum_congr rfl fun c _ => ?_)
  rw [v55_apply]

end Cert.LocalAttn.Reference

end
-- ==== Proof.ReferenceBand.lean ====
/-
  The reference as one function of its five arguments, band by band: its result at image `b`, channel `f`, row
  `8 n + r`, column `w` is the band function of band `n` of image `b` (the eight rows `8 n … 8 n + 7`), the scale and shift
  vectors and the two weight matrices. A window never leaves its band, so the whole-image attention restricted to a band
  is the band's own. The four stretches of the reference, each read at an index, are composed here.
-/
import proofs.«100162_j21328807592345_2_alg».proof.Proof.ReferenceNormProject
import proofs.«100162_j21328807592345_2_alg».proof.Proof.ReferenceWindows
import proofs.«100162_j21328807592345_2_alg».proof.Proof.ReferenceHeads
import proofs.«100162_j21328807592345_2_alg».proof.Proof.ReferenceMerge

noncomputable section

namespace Cert.LocalAttn.Reference

open Cert.ReferenceIdeal Cert.ReferenceIdeal.Gen Cert.ReferenceIdeal.Read Idealize.ShloMosaic Idealize.ShloMosaic.ValueIdx
open Cert.LocalAttn

variable (X0 : (⟨S4x256x256x256, .f32⟩ : BufTy).Contents (Elt Ideal)) (X1 X2 : (⟨S256, .f32⟩ : BufTy).Contents (Elt Ideal))
  (X3 : (⟨S768x256, .f32⟩ : BufTy).Contents (Elt Ideal)) (X4 : (⟨S256x256, .f32⟩ : BufTy).Contents (Elt Ideal))

/-- Position `8 n + r` lies in group `n` -/
theorem grp_pos (n : Fin 32) (r : Fin 8) : grp (pos n r) = n :=
  Fin.ext (by have := n.isLt; have := r.isLt; show (n.val * 8 + r.val) / 8 = n.val; omega)
/-- at place `r`. -/
theorem plc_pos (n : Fin 32) (r : Fin 8) : plc (pos n r) = r :=
  Fin.ext (by have := n.isLt; have := r.isLt; show (n.val * 8 + r.val) % 8 = r.val; omega)

/-- The reference's result on band `n` of image `b` is the band function of that band. -/
theorem result_apply (b : Fin 4) (f : Fin 256) (n : Fin 32) (r : Fin 8) (w : Fin 256) :
    val_main_v58 (F := Ideal) X0 X1 X2 X3 X4 (ix4 b f (pos n r) w)
      = bandOut (fun c r w => X0 (ix4 b c (pos n r) w)) (fun c => X1 (ix1 c)) (fun c => X2 (ix1 c)) (fun f c => X3 (ix2 f c))
          (fun f c => X4 (ix2 f c)) f r w := by
  rw [v58_apply]
  unfold bandOut
  refine congrArg (· + _) (Finset.sum_congr rfl fun c _ => ?_)
  refine congrArg (· * _) ?_
  rw [grp_pos, plc_pos, v52_apply]
  unfold mergedB headB
  have hQ : (fun q d => val_main_v31 (F := Ideal) X0 X1 X2 X3 (ix6 b n (grp w) (headOf c) q d))
      = winB (fun c r w => X0 (ix4 b c (pos n r) w)) (fun c => X1 (ix1 c)) (fun c => X2 (ix1 c)) (fun f c => X3 (ix2 f c)) 0 (by omega)
          (grp w) (headOf c) := by
    funext q d; rw [v31_apply, v25_apply]; rfl
  have hK : (fun q d => val_main_v34 (F := Ideal) X0 X1 X2 X3 (ix6 b n (grp w) (headOf c) q d))
      = winB (fun c r w => X0 (ix4 b c (pos n r) w)) (fun c => X1 (ix1 c)) (fun c => X2 (ix1 c)) (fun f c => X3 (ix2 f c)) 256 (by omega)
          (grp w) (headOf c) := by
    funext q d; rw [v34_apply, v25_apply]; rfl
  have hV : (fun q d => val_main_v37 (F := Ideal) X0 X1 X2 X3 (ix6 b n (grp w) (headOf c) q d))
      = winB (fun c r w => X0 (ix4 b c (pos n r) w)) (fun c => X1 (ix1 c)) (fun c => X2 (ix1 c)) (fun f c => X3 (ix2 f c)) 512 (by omega)
          (grp w) (headOf c) := by
    funext q d; rw [v37_apply, v25_apply]; rfl
  rw [hQ, hK, hV]

end Cert.LocalAttn.Reference

end
-- ==== Proof.ReferenceImage.lean ====
/-
  The reference's result is the whole-image function of its arguments: every index lies in one band, and on a band the
  reference computes the band function.
-/
import proofs.«100162_j21328807592345_2_alg».proof.Proof.ReferenceBand
import proofs.«100162_j21328807592345_2_alg».proof.Proof.ImageAttention

noncomputable section

namespace Cert.LocalAttn.Reference

open Cert.ReferenceIdeal Cert.ReferenceIdeal.Gen Cert.ReferenceIdeal.Read Idealize.ShloMosaic Idealize.ShloMosaic.ValueIdx
open Cert.LocalAttn

/-- The reference's last stage is `imageOut` of the five arguments. -/
theorem result_eq (X0 : (⟨S4x256x256x256, .f32⟩ : BufTy).Contents (Elt Ideal)) (X1 X2 : (⟨S256, .f32⟩ : BufTy).Contents (Elt Ideal))
    (X3 : (⟨S768x256, .f32⟩ : BufTy).Contents (Elt Ideal)) (X4 : (⟨S256x256, .f32⟩ : BufTy).Contents (Elt Ideal)) :
    val_main_v58 (F := Ideal) X0 X1 X2 X3 X4 = imageOut X0 X1 X2 X3 X4 := by
  funext i
  obtain ⟨b, f, h, w, rfl⟩ : ∃ (b : Fin 4) (f h w : Fin 256), i = ix4 b f h w := ⟨i 0, i 1, i 2, i 3, eq_ix4 i⟩
  have e := result_apply X0 X1 X2 X3 X4 b f (grp h) (plc h) w
  rw [pos_grp_plc] at e
  exact e

end Cert.LocalAttn.Reference

end
-- ==== Proof.lean ====
/-
  Windowed multi-head self-attention with a pre-LayerNorm and a residual, on images of 256 channels and 256 x 256
  pixels: the fused kernel against the plain reference, equal on the extended reals.

  The kernel works band by band: one grid point per (image, band of eight rows). At a point it normalises each of the
  band's 8 x 256 pixels over the channels, projects them to queries, keys and values (the weight matrix arriving
  transposed, contraction axis first), cuts the band into 32 windows of 8 x 8 pixels, and for each window and each of
  the 4 heads takes the scaled scores of the 64 tokens, a softmax over the keys and the weighted sum of the values;
  it lays the heads' outputs back on the band, projects them, and adds the input band. The reference does the same
  on the whole image at once, with the windows cut out by reshapes and transposes of rank 7. Both use the same
  operations in the same order with the same four float literals, and a change of float format is the identity on the
  extended reals, so the two results agree once every tensor is read at an index: no law of arithmetic is needed beyond
  re-indexing (a window never leaves its band), and the precondition is never opened.

  The modules: `WindowAttention` states the band function over explicit coordinates, `ImageAttention` the whole-image
  function; `KernelNormProject`, `KernelWindows`, `KernelHeads`, `KernelMerge` read the four stretches of the kernel's body
  at an index and `KernelBand` composes them into the band function; `KernelArray` goes from the bands to the array (the
  bands tile it); `ReferenceNormProject`, `ReferenceWindows`, `ReferenceHeads`, `ReferenceMerge` read the reference's four
  stretches, `ReferenceBand` and `ReferenceImage` compose them into the whole-image function. The frames are the
  generated ones; the kernel's idealization rewrote nothing.
-/
import proofs.«100162_j21328807592345_2_alg».proof.Defs
import proofs.«100162_j21328807592345_2_alg».proof.Proof.Gen.Kernel
import proofs.«100162_j21328807592345_2_alg».proof.Proof.Gen.Kernel.Frame
import proofs.«100162_j21328807592345_2_alg».proof.Proof.Gen.KernelIdeal
import proofs.«100162_j21328807592345_2_alg».proof.Proof.Gen.KernelIdeal.Frame
import proofs.«100162_j21328807592345_2_alg».proof.Proof.Gen.KernelIdeal.Value
import proofs.«100162_j21328807592345_2_alg».proof.Proof.Gen.ReferenceIdeal
import proofs.«100162_j21328807592345_2_alg».proof.Proof.Gen.ReferenceIdeal.Run
import proofs.«100162_j21328807592345_2_alg».proof.Proof.Gen.ReferenceIdeal.Read
import proofs.«100162_j21328807592345_2_alg».proof.Proof.Gen.Pre_finite_inputs
import proofs.«100162_j21328807592345_2_alg».proof.Proof.KernelArray
import proofs.«100162_j21328807592345_2_alg».proof.Proof.ReferenceImage
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals the kernel's result array ends at the whole-image attention function of the arguments (the
    bands, each the band function of what its point read) and so does the reference's (its last stage read at an
    index); the arguments agree. -/
theorem algebraic : Cert.algebraic_KernelIdeal_ReferenceIdeal := by
  intro m ρ m' ρ' _ hagree
  refine ⟨fun c => Cert.LocalAttn.Kernel.resultOf m c, Cert.LocalAttn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.LocalAttn.Reference.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
